-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S16384x16 : Shape := ⟨2, ![16384, 16]⟩
abbrev S8192x16384 : Shape := ⟨2, ![8192, 16384]⟩
abbrev S128x128 : Shape := ⟨2, ![128, 128]⟩
abbrev S128 : Shape := ⟨1, ![128]⟩
abbrev S16x128 : Shape := ⟨2, ![16, 128]⟩
abbrev S256x40 : Shape := ⟨2, ![256, 40]⟩
abbrev S40 : Shape := ⟨1, ![40]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S16384x16 : S_.BroadcastsInDim S16384x16 (![] : Fin 0 → Fin S16384x16.rank)
  reducesTo_S16384x16_S_d0_1 : S16384x16.ReducesTo [0, 1] S_
  bcast_S_S8192x16384 : S_.BroadcastsInDim S8192x16384 (![] : Fin 0 → Fin S8192x16384.rank)
  reducesTo_S8192x16384_S_d0_1 : S8192x16384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S128 .f32) (main_arg8 : FVec F S256x40 .f32) (main_arg9 : FVec F S40 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x40 .f32 := Host.absf main_arg8
  let main_cst_14 : FVec F S_ .f32 := constant S_ .f32 0x7F800000#32
  let main_v40 : FVec F S256x40 .f32 := broadcastInDim S256x40 ![] bcast_S_S256x40 main_cst_14
  let main_v41 : IVec S256x40 1 := cmpf .olt main_v39 main_v40
  let main_c_15 : IVec S_ 1 := constantI S_ 1 1#1
  let main_v42 : IVec S_ 1 := (fun x v => Host.reduce IntOp.andi x v reducesTo_S256x40_S_d0_1 h_S_) main_v41 main_c_15
  let main_v43 : IVec S_ 1 := andi main_v38 main_v42
  let main_v44 : FVec F S40 .f32 := Host.absf main_arg9
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S16x128 .f32) (main_arg7 : FVec F S128 .f32) (main_arg8 : FVec F S256x40 .f32) (main_arg9 : FVec F S40 .f32) (main_v13 : IVec S_ 1) (main_v16 : IVec S8192x16384 1) : IVec S_ 1 :=
  let main_c_5 : IVec S_ 1 := constantI S_ 1 1#1
  let main_v17 : IVec S_ 1 := (fun x v => Host.reduce IntOp.andi x v reducesTo_S8192x16384_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S16x128 .f32 := Host.absf main_arg6
  let main_cst_10 : FVec F S_ .f32 := constant S_ .f32 0x7F800000#32
  let main_v30 : FVec F S16x128 .f32 := broadcastInDim S16x128 ![] bcast_S_S16x128 main_cst_10
  let main_v31 : IVec S16x128 1 := cmpf .olt main_v29 main_v30
  let main_c_11 : IVec S_ 1 := constantI S_ 1 1#1
  let main_v32 : IVec S_ 1 := (fun x v => Host.reduce IntOp.andi x v reducesTo_S16x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x128 .f32) (main_arg1 : FVec F S8192x8192 .f32) (main_arg2 : FVec F S16384x16 .f32) (main_arg3 : FVec F S8192x16384 .f32) (main_arg4 : FVec F S128x128 .f32) (main_arg5 : FVec F S128 .f32) (main_arg6 : FVec F S16x128 .f32) (main_arg7 : FVec F S128 .f32) (main_arg8 : FVec F S256x40 .f32) (main_arg9 : FVec F S40 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S16384x16 .f32 := Host.absf main_arg2
  let main_cst_2 : FVec F S_ .f32 := constant S_ .f32 0x7F800000#32
  let main_v10 : FVec F S16384x16 .f32 := broadcastInDim S16384x16 ![] bcast_S_S16384x16 main_cst_2
  let main_v11 : IVec S16384x16 1 := cmpf .olt main_v9 main_v10
  let main_c_3 : IVec S_ 1 := constantI S_ 1 1#1
  let main_v12 : IVec S_ 1 := (fun x v => Host.reduce IntOp.andi x v reducesTo_S16384x16_S_d0_1 h_S_) main_v11 main_c_3
  let main_v13 : IVec S_ 1 := andi main_v8 main_v12
  let main_v14 : FVec F S8192x16384 .f32 := Host.absf main_arg3
  let main_cst_4 : FVec F S_ .f32 := constant S_ .f32 0x7F800000#32
  let main_v15 : FVec F S8192x16384 .f32 := broadcastInDim S8192x16384 ![] bcast_S_S8192x16384 main_cst_4
  let main_v16 : IVec S8192x16384 1 := cmpf .olt main_v14 main_v15
  fn_part1 (F := F) main_arg4 main_arg5 main_arg6 main_arg7 main_arg8 main_arg9 main_v13 main_v16
-- ==== Kernel.lean ====
abbrev S8192x128 : Shape := ⟨2, ![8192, 128]⟩
abbrev S8192x8192 : Shape := ⟨2, ![8192, 8192]⟩
abbrev S16384x16 : Shape := ⟨2, ![16384, 16]⟩
abbrev S8192x16384 : Shape := ⟨2, ![8192, 16384]⟩
abbrev S128x128 : Shape := ⟨2, ![128, 128]⟩
abbrev S128 : Shape := ⟨1, ![128]⟩
abbrev S16x128 : Shape := ⟨2, ![16, 128]⟩
abbrev S256x40 : Shape := ⟨2, ![256, 40]⟩
abbrev S40 : Shape := ⟨1, ![40]⟩
abbrev S1024x128 : Shape := ⟨2, ![1024, 128]⟩
abbrev S16384x128 : Shape := ⟨2, ![16384, 128]⟩
abbrev S1024x16 : Shape := ⟨2, ![1024, 16]⟩
abbrev S_ : Shape := ⟨0, ![]⟩
abbrev S128x40 : Shape := ⟨2, ![128, 40]⟩
abbrev S1 : Shape := ⟨1, ![1]⟩
abbrev S1x128 : Shape := ⟨2, ![1, 128]⟩
abbrev S1x40 : Shape := ⟨2, ![1, 40]⟩
abbrev S256x8192 : Shape := ⟨2, ![256, 8192]⟩
abbrev S256x128 : Shape := ⟨2, ![256, 128]⟩
abbrev S128x16384 : Shape := ⟨2, ![128, 16384]⟩
abbrev S256 : Shape := ⟨1, ![256]⟩
abbrev S256x1 : Shape := ⟨2, ![256, 1]⟩
abbrev S8192x40 : Shape := ⟨2, ![8192, 40]⟩

abbrev nBuf : Space → Nat
  | .hbm => 38
  | .vmem => 32
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S16384x16, .f32⟩
  | .hbm, ⟨3, _⟩ => ⟨S8192x16384, .f32⟩
  | .hbm, ⟨4, _⟩ => ⟨S128x128, .f32⟩
  | .hbm, ⟨5, _⟩ => ⟨S128, .f32⟩
  | .hbm, ⟨6, _⟩ => ⟨S16x128, .f32⟩
  | .hbm, ⟨7, _⟩ => ⟨S128, .f32⟩
  | .hbm, ⟨8, _⟩ => ⟨S256x40, .f32⟩
  | .hbm, ⟨9, _⟩ => ⟨S40, .f32⟩
  | .hbm, ⟨10, _⟩ => ⟨S8192x128, .bf16⟩
  | .hbm, ⟨11, _⟩ => ⟨S16384x128, .bf16⟩
  | .hbm, ⟨12, _⟩ => ⟨S_, .bf16⟩
  | .hbm, ⟨13, _⟩ => ⟨S128x128, .bf16⟩
  | .hbm, ⟨14, _⟩ => ⟨S128x40, .f32⟩
  | .hbm, ⟨15, _⟩ => ⟨S128x40, .bf16⟩
  | .hbm, ⟨16, _⟩ => ⟨S_, .i32⟩
  | .hbm, ⟨17, _⟩ => ⟨S1, .i32⟩
  | .hbm, ⟨18, _⟩ => ⟨S128x128, .bf16⟩
  | .hbm, ⟨19, _⟩ => ⟨S_, .bf16⟩
  | .hbm, ⟨20, _⟩ => ⟨S128x128, .bf16⟩
  | .hbm, ⟨21, _⟩ => ⟨S128x40, .f32⟩
  | .hbm, ⟨22, _⟩ => ⟨S128x40, .bf16⟩
  | .hbm, ⟨23, _⟩ => ⟨S_, .i32⟩
  | .hbm, ⟨24, _⟩ => ⟨S1, .i32⟩
  | .hbm, ⟨25, _⟩ => ⟨S128x128, .bf16⟩
  | .hbm, ⟨26, _⟩ => ⟨S_, .f32⟩
  | .hbm, ⟨27, _⟩ => ⟨S1x128, .f32⟩
  | .hbm, ⟨28, _⟩ => ⟨S_, .i32⟩
  | .hbm, ⟨29, _⟩ => ⟨S1, .i32⟩
  | .hbm, ⟨30, _⟩ => ⟨S1x40, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S8192x128, .f32⟩
  | .hbm, ⟨35, _⟩ => ⟨S8192x128, .bf16⟩
  | .hbm, ⟨36, _⟩ => ⟨S8192x128, .f32⟩
  | .hbm, ⟨37, _⟩ => ⟨S8192x40, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1024x128, .bf16⟩
  | .local _ .vmem, ⟨4, _⟩ => ⟨S1024x128, .bf16⟩
  | .local _ .vmem, ⟨5, _⟩ => ⟨S1024x16, .f32⟩
  | .local _ .vmem, ⟨6, _⟩ => ⟨S1024x16, .f32⟩
  | .local _ .vmem, ⟨7, _⟩ => ⟨S16x128, .f32⟩
  | .local _ .vmem, ⟨8, _⟩ => ⟨S1024x128, .bf16⟩
  | .local _ .vmem, ⟨9, _⟩ => ⟨S1024x128, .bf16⟩
  | .local _ .vmem, ⟨10, _⟩ => ⟨S256x8192, .f32⟩
  | .local _ .vmem, ⟨11, _⟩ => ⟨S256x8192, .f32⟩
  | .local _ .vmem, ⟨12, _⟩ => ⟨S8192x128, .bf16⟩
  | .local _ .vmem, ⟨13, _⟩ => ⟨S1x128, .f32⟩
  | .local _ .vmem, ⟨14, _⟩ => ⟨S128x128, .bf16⟩
  | .local _ .vmem, ⟨15, _⟩ => ⟨S256x128, .f32⟩
  | .local _ .vmem, ⟨16, _⟩ => ⟨S256x128, .f32⟩
  | .local _ .vmem, ⟨17, _⟩ => ⟨S128x16384, .f32⟩
  | .local _ .vmem, ⟨18, _⟩ => ⟨S128x16384, .f32⟩
  | .local _ .vmem, ⟨19, _⟩ => ⟨S16384x128, .bf16⟩
  | .local _ .vmem, ⟨20, _⟩ => ⟨S1x128, .f32⟩
  | .local _ .vmem, ⟨21, _⟩ => ⟨S128x128, .bf16⟩
  | .local _ .vmem, ⟨22, _⟩ => ⟨S128x128, .f32⟩
  | .local _ .vmem, ⟨23, _⟩ => ⟨S128x128, .f32⟩
  | .local _ .vmem, ⟨24, _⟩ => ⟨S128x128, .bf16⟩
  | .local _ .vmem, ⟨25, _⟩ => ⟨S128x128, .bf16⟩
  | .local _ .vmem, ⟨26, _⟩ => ⟨S256x8192, .f32⟩
  | .local _ .vmem, ⟨27, _⟩ => ⟨S256x8192, .f32⟩
  | .local _ .vmem, ⟨28, _⟩ => ⟨S8192x128, .bf16⟩
  | .local _ .vmem, ⟨29, _⟩ => ⟨S1x128, .f32⟩
  | .local _ .vmem, ⟨30, _⟩ => ⟨S256x128, .f32⟩
  | .local _ .vmem, ⟨31, _⟩ => ⟨S256x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg4_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem4_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x16384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16384x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S128x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S128x128 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x8192 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8192x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S256x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S1024x128_S1024x128_0_0 : (Rect.unit (s := S1024x128) ![0, 0] S1024x128.size inb_S1024x128_S1024x128_0_0).PackedRows (EltTy.packing .bf16)
  inb_S1024x16_S1024x16_0_0 : ∀ a, (![0, 0] : Fin 2 → Nat) a + S1024x16.size a ≤ S1024x16.size a
  h_S1024x16 : 0 < S1024x16.numel
  inb_S16x128_S16x128_0_0 : ∀ a, (![0, 0] : Fin 2 → Nat) a + S16x128.size a ≤ S16x128.size a
  h_S16x128 : 0 < S16x128.numel
  bcast_S_S128x128 : S_.BroadcastsInDim S128x128 (![] : Fin 0 → Fin S128x128.rank)
  slices_S256x40_S128x40_0_0 : S256x40.Slices ![0, 0] S128x40
  bcast_S_S1 : S_.BroadcastsInDim S1 (![] : Fin 0 → Fin S1.rank)
  slices_S256x40_S128x40_128_0 : S256x40.Slices ![128, 0] S128x40
  bcast_S_S1x128 : S_.BroadcastsInDim S1x128 (![] : Fin 0 → Fin S1x128.rank)
  bcast_S40_S1x40_1 : S40.BroadcastsInDim S1x40 (![1] : Fin 1 → Fin S1x40.rank)
  shapeCasts_S128_S1x128 : S128.ShapeCasts S1x128
  inb_S256x8192_S256x8192_0_0 : ∀ a, (![0, 0] : Fin 2 → Nat) a + S256x8192.size a ≤ S256x8192.size a
  h_S256x8192 : 0 < S256x8192.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  shapeCasts_S128x128_S128x128 : S128x128.ShapeCasts S128x128
  inb_S256x128_S256x128_0_0 : ∀ a, (![0, 0] : Fin 2 → Nat) a + S256x128.size a ≤ S256x128.size a
  h_S256x128 : 0 < S256x128.numel
  inb_S128x16384_S128x16384_0_0 : ∀ a, (![0, 0] : Fin 2 → Nat) a + S128x16384.size a ≤ S128x16384.size a
  h_S128x16384 : 0 < S128x16384.numel
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  broadcasts_S1x128_S128x128 : S1x128.Broadcasts S128x128
  packedbf16_S128x128_S128x128_0_0 : (Rect.unit (s := S128x128) ![0, 0] S128x128.size inb_S128x128_S128x128_0_0).PackedRows (EltTy.packing .bf16)
  iota_S256x128_d1_w32 : S256x128.Iotas .tc 32 [1]
  reduces_S256x128_S256 : S256x128.Reduces [1] S256
  shapeCasts_S256_S256x1 : S256.ShapeCasts S256x1
  broadcasts_S256x1_S256x128 : S256x1.Broadcasts S256x128
  slices_S8192x128_S8192x40_0_0 : S8192x128.Slices ![0, 0] S8192x40
  dot_S1024x128_S128x128_S1024x128_1_0_0_1_n_n_wf : DotDims.WF S1024x128 S128x128 S1024x128 [1] [0] [0] [1] [] []
  dot_S1024x16_S16x128_S1024x128_1_0_0_1_n_n_wf : DotDims.WF S1024x16 S16x128 S1024x128 [1] [0] [0] [1] [] []
  scatter_S128x128_S1_S128x40_01_n_1_0_wf : ScatterDims.WF S128x128 S1 S128x40 [0, 1] [] [1] 0
  scatter_S1x128_S1_S1x40_01_n_1_0_wf : ScatterDims.WF S1x128 S1 S1x40 [0, 1] [] [1] 0
  dot_S256x8192_S8192x128_S256x128_1_0_0_1_n_n_wf : DotDims.WF S256x8192 S8192x128 S256x128 [1] [0] [0] [1] [] []
  dot_S256x128_S128x128_S256x128_1_0_0_1_n_n_wf : DotDims.WF S256x128 S128x128 S256x128 [1] [0] [0] [1] [] []
  dot_S128x16384_S16384x128_S128x128_1_0_0_1_n_n_wf : DotDims.WF S128x16384 S16384x128 S128x128 [1] [0] [0] [1] [] []
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .bf16 = 32 ∨ (Rect.block (s := S8192x128) S1024x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x16.size a ≤ S16384x16.size a
  hwx1_0 : ∀ i : grid1.Coords, EltTy.bits .f32 = 32 ∨ (Rect.block (s := S16384x16) S1024x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S16x128.size a
  hwx1_1 : ∀ i : grid1.Coords, EltTy.bits .f32 = 32 ∨ (Rect.block (s := S16x128) S16x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S16384x128.size a
  hwx1_2 : ∀ i : grid1.Coords, EltTy.bits .bf16 = 32 ∨ (Rect.block (s := S16384x128) S1024x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x8192.size a ≤ S8192x8192.size a
  hwx2_0 : ∀ i : grid2.Coords, EltTy.bits .f32 = 32 ∨ (Rect.block (s := S8192x8192) S256x8192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x128.size a ≤ S8192x128.size a
  hwx2_1 : ∀ i : grid2.Coords, EltTy.bits .bf16 = 32 ∨ (Rect.block (s := S8192x128) S8192x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S8192x128.size a
  hwx2_4 : ∀ i : grid2.Coords, EltTy.bits .f32 = 32 ∨ (Rect.block (s := S8192x128) S256x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x16384.size a ≤ S8192x16384.size a
  hwx3_0 : ∀ i : grid3.Coords, EltTy.bits .f32 = 32 ∨ (Rect.block (s := S8192x16384) S128x16384.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16384x128.size a ≤ S16384x128.size a
  hwx3_1 : ∀ i : grid3.Coords, EltTy.bits .bf16 = 32 ∨ (Rect.block (s := S16384x128) S16384x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S8192x128.size a
  hwx3_4 : ∀ i : grid3.Coords, EltTy.bits .f32 = 32 ∨ (Rect.block (s := S8192x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S8192x128.size a
  hwx3_5 : ∀ i : grid3.Coords, EltTy.bits .bf16 = 32 ∨ (Rect.block (s := S8192x128) S128x128.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x8192.size a ≤ S8192x8192.size a
  hwx4_0 : ∀ i : grid4.Coords, EltTy.bits .f32 = 32 ∨ (Rect.block (s := S8192x8192) S256x8192.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8192x128.size a ≤ S8192x128.size a
  hwx4_1 : ∀ i : grid4.Coords, EltTy.bits .bf16 = 32 ∨ (Rect.block (s := S8192x128) S8192x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S256x128.size a ≤ S8192x128.size a
  hwx4_3 : ∀ i : grid4.Coords, EltTy.bits .f32 = 32 ∨ (Rect.block (s := S8192x128) S256x128.size (cc4_transform_3 i) (hinb4_3 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x16_S16x128_S1024x128_1_0_0_1_n_n : DotDims S1024x16 S16x128 S1024x128 where
  lhsContracting := [1]
  rhsContracting := [0]
  lhsNonContracting := [0]
  rhsNonContracting := [1]
  lhsBatch := []
  rhsBatch := []
  wf := dot_S1024x16_S16x128_S1024x128_1_0_0_1_n_n_wf
def scatter_S128x128_S1_S128x40_01_n_1_0 : ScatterDims S128x128 S1 S128x40 where
  updateWindowDims := [0, 1]
  insertedWindowDims := []
  scatterDimsToOperandDims := [1]
  indexVectorDim := 0
  wf := scatter_S128x128_S1_S128x40_01_n_1_0_wf
def scatter_S1x128_S1_S1x40_01_n_1_0 : ScatterDims S1x128 S1 S1x40 where
  updateWindowDims := [0, 1]
  insertedWindowDims := []
  scatterDimsToOperandDims := [1]
  indexVectorDim := 0
  wf := scatter_S1x128_S1_S1x40_01_n_1_0_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S128x16384_S16384x128_S128x128_1_0_0_1_n_n : DotDims S128x16384 S16384x128 S128x128 where
  lhsContracting := [1]
  rhsContracting := [0]
  lhsNonContracting := [0]
  rhsNonContracting := [1]
  lhsBatch := []
  rhsBatch := []
  wf := dot_S128x16384_S16384x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S1024x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S16x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S256x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S8192x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S256x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg3) S128x16384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S16384x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v11) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v18) S128x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v19) S128x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_arg1) S256x8192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v19) S8192x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v15) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v20) S256x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S16384x16 : Shape := ⟨2, ![16384, 16]⟩
abbrev S8192x16384 : Shape := ⟨2, ![8192, 16384]⟩
abbrev S128x128 : Shape := ⟨2, ![128, 128]⟩
abbrev S128 : Shape := ⟨1, ![128]⟩
abbrev S16x128 : Shape := ⟨2, ![16, 128]⟩
abbrev S256x40 : Shape := ⟨2, ![256, 40]⟩
abbrev S40 : Shape := ⟨1, ![40]⟩
abbrev S1x128 : Shape := ⟨2, ![1, 128]⟩
abbrev S_ : Shape := ⟨0, ![]⟩
abbrev S16384x128 : Shape := ⟨2, ![16384, 128]⟩
abbrev S8192x256 : Shape := ⟨2, ![8192, 256]⟩
abbrev S8192x40 : Shape := ⟨2, ![8192, 40]⟩
abbrev S1x40 : Shape := ⟨2, ![1, 40]⟩
abbrev S8192 : Shape := ⟨1, ![8192]⟩
abbrev S8192x1 : Shape := ⟨2, ![8192, 1]⟩

abbrev nBuf : Space → Nat
  | .hbm => 47
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S16384x16, .f32⟩
  | .hbm, ⟨3, _⟩ => ⟨S8192x16384, .f32⟩
  | .hbm, ⟨4, _⟩ => ⟨S128x128, .f32⟩
  | .hbm, ⟨5, _⟩ => ⟨S128, .f32⟩
  | .hbm, ⟨6, _⟩ => ⟨S16x128, .f32⟩
  | .hbm, ⟨7, _⟩ => ⟨S128, .f32⟩
  | .hbm, ⟨8, _⟩ => ⟨S256x40, .f32⟩
  | .hbm, ⟨9, _⟩ => ⟨S40, .f32⟩
  | .hbm, ⟨10, _⟩ => ⟨S8192x128, .f32⟩
  | .hbm, ⟨11, _⟩ => ⟨S8192x128, .f32⟩
  | .hbm, ⟨12, _⟩ => ⟨S1x128, .f32⟩
  | .hbm, ⟨13, _⟩ => ⟨S8192x128, .f32⟩
  | .hbm, ⟨14, _⟩ => ⟨S8192x128, .f32⟩
  | .hbm, ⟨15, _⟩ => ⟨S_, .f32⟩
  | .hbm, ⟨16, _⟩ => ⟨S8192x128, .f32⟩
  | .hbm, ⟨17, _⟩ => ⟨S8192x128, .f32⟩
  | .hbm, ⟨18, _⟩ => ⟨S16384x128, .f32⟩
  | .hbm, ⟨19, _⟩ => ⟨S8192x128, .f32⟩
  | .hbm, ⟨20, _⟩ => ⟨S1x128, .f32⟩
  | .hbm, ⟨21, _⟩ => ⟨S8192x128, .f32⟩
  | .hbm, ⟨22, _⟩ => ⟨S8192x128, .f32⟩
  | .hbm, ⟨23, _⟩ => ⟨S_, .f32⟩
  | .hbm, ⟨24, _⟩ => ⟨S8192x128, .f32⟩
  | .hbm, ⟨25, _⟩ => ⟨S8192x128, .f32⟩
  | .hbm, ⟨26, _⟩ => ⟨S8192x256, .f32⟩
  | .hbm, ⟨27, _⟩ => ⟨S8192x40, .f32⟩
  | .hbm, ⟨28, _⟩ => ⟨S8192x40, .f32⟩
  | .hbm, ⟨29, _⟩ => ⟨S1x40, .f32⟩
  | .hbm, ⟨30, _⟩ => ⟨S8192x40, .f32⟩
  | .hbm, ⟨31, _⟩ => ⟨S8192x40, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S8192x1, .f32⟩
  | .hbm, ⟨38, _⟩ => ⟨S8192x40, .f32⟩
  | .hbm, ⟨39, _⟩ => ⟨S8192x40, .f32⟩
  | .hbm, ⟨40, _⟩ => ⟨S8192x40, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1, .f32⟩
  | .hbm, ⟨45, _⟩ => ⟨S8192x40, .f32⟩
  | .hbm, ⟨46, _⟩ => ⟨S8192x40, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call2_cst : Ref sig .tc := ⟨.hbm, 32, rfl⟩
abbrev main_call2_v0 : Ref sig .tc := ⟨.hbm, 33, rfl⟩
abbrev main_call2_cst_0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_cst_1 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_v18 : Ref sig .tc := ⟨.hbm, 46, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  concatenates_S8192x128_S8192x128_S8192x256_d1 : Shape.Concatenates [S8192x128, S8192x128] S8192x256 1
  bcast_S40_S1x40_1 : S40.BroadcastsInDim S1x40 (![1] : Fin 1 → Fin S1x40.rank)
  bcast_S1x40_S8192x40_0_1 : S1x40.BroadcastsInDim S8192x40 (![0, 1] : Fin 2 → Fin S8192x40.rank)
  reducesTo_S8192x40_S8192_d1 : S8192x40.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x40_0_1 : S8192x1.BroadcastsInDim S8192x40 (![0, 1] : Fin 2 → Fin S8192x40.rank)
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []
  dot_S16384x16_S16x128_S16384x128_1_0_0_1_n_n_wf : DotDims.WF S16384x16 S16x128 S16384x128 [1] [0] [0] [1] [] []
  dot_S8192x16384_S16384x128_S8192x128_1_0_0_1_n_n_wf : DotDims.WF S8192x16384 S16384x128 S8192x128 [1] [0] [0] [1] [] []
  dot_S8192x256_S256x40_S8192x40_1_0_0_1_n_n_wf : DotDims.WF S8192x256 S256x40 S8192x40 [1] [0] [0] [1] [] []
  dot_S8192x8192_S8192x40_S8192x40_1_0_0_1_n_n_wf : DotDims.WF S8192x8192 S8192x40 S8192x40 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S16384x16_S16x128_S16384x128_1_0_0_1_n_n : DotDims S16384x16 S16x128 S16384x128 where
  lhsContracting := [1]
  rhsContracting := [0]
  lhsNonContracting := [0]
  rhsNonContracting := [1]
  lhsBatch := []
  rhsBatch := []
  wf := dot_S16384x16_S16x128_S16384x128_1_0_0_1_n_n_wf
def dot_S8192x16384_S16384x128_S8192x128_1_0_0_1_n_n : DotDims S8192x16384 S16384x128 S8192x128 where
  lhsContracting := [1]
  rhsContracting := [0]
  lhsNonContracting := [0]
  rhsNonContracting := [1]
  lhsBatch := []
  rhsBatch := []
  wf := dot_S8192x16384_S16384x128_S8192x128_1_0_0_1_n_n_wf
def dot_S8192x256_S256x40_S8192x40_1_0_0_1_n_n : DotDims S8192x256 S256x40 S8192x40 where
  lhsContracting := [1]
  rhsContracting := [0]
  lhsNonContracting := [0]
  rhsNonContracting := [1]
  lhsBatch := []
  rhsBatch := []
  wf := dot_S8192x256_S256x40_S8192x40_1_0_0_1_n_n_wf
def dot_S8192x8192_S8192x40_S8192x40_1_0_0_1_n_n : DotDims S8192x8192 S8192x40 S8192x40 where
  lhsContracting := [1]
  rhsContracting := [0]
  lhsNonContracting := [0]
  rhsNonContracting := [1]
  lhsBatch := []
  rhsBatch := []
  wf := dot_S8192x8192_S8192x40_S8192x40_1_0_0_1_n_n_wf

class Facts : Prop extends Facts₀ where

variable [Facts]
-- ==== Proof.Spec.lean ====
/-
  The function both programs compute, index by index, on the extended reals.

  A two-layer line-graph convolution.  From node features `x` and edge features `y`, a dense adjacency `adj`
  and a dense incidence `inc`:
    u = x · W1,  v = y · We                       (the two projections)
    h = max (adj · u + b1) 0,  g = max (inc · v + be) 0      (one hidden layer per graph, rectified)
    s = h · W2[0:128] + g · W2[128:256]           (the product of the row-wise join [h | g] with W2, split at the join)
    l = adj · s + b2                              (the logits, 40 classes)
    out = (l - M) - log (Σ_c exp (l_c - M)),  M the row's largest logit       (a row-wise log-softmax)
  Every sum is a finite sum of extended reals, every maximum the lattice's; nothing here is evaluated.
-/
import Idealize.ShloMosaic.PureOps.Ideal
import Idealize.ShloMosaic.Lib.ValueIdx

noncomputable section

namespace Cert.LineGcn

open Idealize.ShloMosaic Idealize.ShloMosaic.ValueIdx
open scoped BigOperators

/-- A matrix of extended reals, read at a pair of coordinates through `ix2`. -/
abbrev Mat (a b : Nat) := (⟨2, ![a, b]⟩ : Shape).Idx → EReal
/-- A vector of extended reals, read at a coordinate through `ix1`. -/
abbrev Vc (a : Nat) := (⟨1, ![a]⟩ : Shape).Idx → EReal

/-- Entry `(r, j)` of the matrix product `a · b`: the sum over the shared axis. -/
def mm {n k d : Nat} (a : Mat n k) (b : Mat k d) (r : Fin n) (j : Fin d) : EReal :=
  ∑ t : Fin k, a (ix2 r t) * b (ix2 t j)

/-- Entry `(r, j)` of a graph-convolution layer: `max (Σ_t a r t · p t j + bias j) 0`, `p` given by coordinates. -/
def layer {n k d : Nat} (a : Mat n k) (p : Fin k → Fin d → EReal) (bias : Vc d) (r : Fin n) (j : Fin d) : EReal :=
  max ((∑ t : Fin k, a (ix2 r t) * p t j) + bias (ix1 j)) 0

section
variable (x : Mat 8192 128) (adj : Mat 8192 8192) (y : Mat 16384 16) (inc : Mat 8192 16384)
  (W1 : Mat 128 128) (b1 : Vc 128) (We : Mat 16 128) (be : Vc 128) (W2 : Mat 256 40) (b2 : Vc 40)

/-- The node layer `h = max (adj · (x · W1) + b1) 0`. -/
def hid (r : Fin 8192) (j : Fin 128) : EReal := layer adj (mm x W1) b1 r j
/-- The edge layer `g = max (inc · (y · We) + be) 0`. -/
def edg (r : Fin 8192) (j : Fin 128) : EReal := layer inc (mm y We) be r j

/-- Row `j` of the upper half of `W2` and row `j` of its lower half. -/
def upper (j : Fin 128) : Fin 256 := ⟨j.val, by omega⟩
def lower (j : Fin 128) : Fin 256 := ⟨128 + j.val, by omega⟩

/-- `s = h · W2[0:128] + g · W2[128:256]` at `(r, c)`. -/
def mix (r : Fin 8192) (c : Fin 40) : EReal :=
  (∑ j : Fin 128, hid x adj W1 b1 r j * W2 (ix2 (upper j) c)) + (∑ j : Fin 128, edg y inc We be r j * W2 (ix2 (lower j) c))

/-- The logits `l = adj · s + b2` at `(r, c)`. -/
def logit (r : Fin 8192) (c : Fin 40) : EReal :=
  (∑ t : Fin 8192, adj (ix2 r t) * mix x adj y inc W1 b1 We be W2 t c) + b2 (ix1 c)

/-- The largest logit of row `r` (the fold of `max` from `⊥`). -/
def rowMax (r : Fin 8192) : EReal :=
  (Finset.univ : Finset (Fin 40)).fold max ⊥ (fun c => logit x adj y inc W1 b1 We be W2 b2 r c)

/-- The log-softmax of row `r` at class `c`. -/
def out (r : Fin 8192) (c : Fin 40) : EReal :=
  (logit x adj y inc W1 b1 We be W2 b2 r c - rowMax x adj y inc W1 b1 We be W2 b2 r)
    - Ideal.log (∑ c' : Fin 40, Ideal.exp (logit x adj y inc W1 b1 We be W2 b2 r c' - rowMax x adj y inc W1 b1 We be W2 b2 r))

/-- The whole result array `[8192, 40]`. -/
def result : Mat 8192 40 := fun i => out x adj y inc W1 b1 We be W2 b2 (i 0) (i 1)

end

end Cert.LineGcn

end
-- ==== Proof.RefValue.lean ====
/-
  The reference program is the specification, index by index.

  The reference computes, stage by stage on whole arrays: the two projections x · W1 and y · We, the two rectified
  layers h = max (adj · (x · W1) + b1) 0 and g = max (inc · (y · We) + be) 0, the row-wise join [h | g], its product
  with W2, the logits adj · ([h | g] · W2) + b2 and a row-wise log-softmax of them.  Each lemma below reads one group of
  stages at an index built from its coordinates and identifies it with the specification's function of the same name.
  Two steps are more than a reading.  The join: entry (r, k) of [h | g] is h (r, k) for k below 128 and g (r, k - 128)
  from 128 on, so the sum over the 256 columns of [h | g] (r, k) * W2 (k, c) is the sum over the first 128 plus the sum
  over the last 128.  The row maximum: the fold of max from -∞ over the 40 logits of the row, then max (-∞) with it, which
  changes nothing since -∞ is the least extended real.  Every step is an identity of extended reals: sums are split and
  re-indexed (addition of extended reals is commutative and associative), nothing is distributed or cancelled.
-/
import proofs.«167551_g84756884620005_cont_sun_c4_91_1_alg».proof.Proof.RefReadP
import proofs.«167551_g84756884620005_cont_sun_c4_91_1_alg».proof.Proof.Spec

noncomputable section

namespace Cert.LineGcn.Ref

open Cert.ReferenceIdeal Cert.ReferenceIdeal.Gen Cert.ReferenceIdeal.ReadP
open Idealize.ShloMosaic Idealize.ShloMosaic.TcCoe Idealize.SL.Sem Idealize.ShloMosaic.StableHlo Idealize.ShloMosaic.ValueIdx
open scoped BigOperators

/-- Two rank-2 indices with the same coordinates are equal. -/
local macro "idx2" : tactic => `(tactic| (funext a; match a with | ⟨0, _⟩ => rfl | ⟨1, _⟩ => rfl))
/-- Two rank-1 indices with the same coordinate are equal. -/
local macro "idx1" : tactic => `(tactic| (funext a; match a with | ⟨0, _⟩ => rfl))

/-- The bit pattern of -∞ is the least extended real. -/
theorem negInf_eq_bot : Ideal.ofBits .f32 0xFF800000#32 = (⊥ : EReal) := by
  simp [Ideal.ofBits, Ideal.ieee]

variable (x0 : (⟨S8192x128, .f32⟩ : BufTy).Contents (Elt Ideal)) (x1 : (⟨S8192x8192, .f32⟩ : BufTy).Contents (Elt Ideal))
  (x2 : (⟨S16384x16, .f32⟩ : BufTy).Contents (Elt Ideal)) (x3 : (⟨S8192x16384, .f32⟩ : BufTy).Contents (Elt Ideal))
  (x4 : (⟨S128x128, .f32⟩ : BufTy).Contents (Elt Ideal)) (x5 : (⟨S128, .f32⟩ : BufTy).Contents (Elt Ideal))
  (x6 : (⟨S16x128, .f32⟩ : BufTy).Contents (Elt Ideal)) (x7 : (⟨S128, .f32⟩ : BufTy).Contents (Elt Ideal))
  (x8 : (⟨S256x40, .f32⟩ : BufTy).Contents (Elt Ideal)) (x9 : (⟨S40, .f32⟩ : BufTy).Contents (Elt Ideal))

/-! ## The two projections -/

/-- x · W1 at (r, j). -/
theorem node_proj (r : Fin 8192) (j : Fin 128) :
    val_main_v0 (F := Ideal) x0 x4 (ix2 r j) = mm x0 x4 r j := by
  rw [val_main_v0_apply]
  unfold mm
  refine Finset.sum_congr rfl fun k _ => ?_
  rw [show lidx_main_v0 (ix2 r j) k = ix2 r k by idx2, show ridx_main_v0 (ix2 r j) k = ix2 k j by idx2]

/-- y · We at (r, j). -/
theorem edge_proj (r : Fin 16384) (j : Fin 128) :
    val_main_v6 (F := Ideal) x2 x6 (ix2 r j) = mm x2 x6 r j := by
  rw [val_main_v6_apply]
  unfold mm
  refine Finset.sum_congr rfl fun k _ => ?_
  rw [show lidx_main_v6 (ix2 r j) k = ix2 r k by idx2, show ridx_main_v6 (ix2 r j) k = ix2 k j by idx2]

/-! ## The two rectified layers -/

/-- h = max (adj · (x · W1) + b1) 0 at (r, j). -/
theorem hid_eq (r : Fin 8192) (j : Fin 128) :
    val_main_v5 (F := Ideal) x0 x1 x4 x5 (ix2 r j) = hid x0 x1 x4 x5 r j := by
  rw [val_main_v5_apply, val_main_v4_apply, val_main_v1_apply, val_main_v3_apply, val_main_v2_apply,
    val_main_call0_v0_apply, val_main_call0_cst_apply, Ideal.maximumf_def, Ideal.addf_def, Ideal.ofBits_def,
    Ideal.ofBits_zero_f32]
  unfold hid layer
  refine congrArg₂ max (congrArg₂ (· + ·) (Finset.sum_congr rfl fun k _ => ?_) (congrArg x5 (by idx1))) rfl
  rw [show lidx_main_v1 (ix2 r j) k = ix2 r k by idx2, show ridx_main_v1 (ix2 r j) k = ix2 k j by idx2, node_proj]

/-- g = max (inc · (y · We) + be) 0 at (r, j). -/
theorem edg_eq (r : Fin 8192) (j : Fin 128) :
    val_main_v11 (F := Ideal) x2 x3 x6 x7 (ix2 r j) = edg x2 x3 x6 x7 r j := by
  rw [val_main_v11_apply, val_main_v10_apply, val_main_v7_apply, val_main_v9_apply, val_main_v8_apply,
    val_main_call1_v0_apply, val_main_call1_cst_apply, Ideal.maximumf_def, Ideal.addf_def, Ideal.ofBits_def,
    Ideal.ofBits_zero_f32]
  unfold edg layer
  refine congrArg₂ max (congrArg₂ (· + ·) (Finset.sum_congr rfl fun k _ => ?_) (congrArg x7 (by idx1))) rfl
  rw [show lidx_main_v7 (ix2 r j) k = ix2 r k by idx2, show ridx_main_v7 (ix2 r j) k = ix2 k j by idx2, edge_proj]

/-! ## The join [h | g] and its product with W2 -/

/-- A column of the join below 128 is that column of h. -/
theorem join_upper (r : Fin 8192) (j : Fin 128) :
    val_main_v12 (F := Ideal) x0 x1 x2 x3 x4 x5 x6 x7 (ix2 r (upper j)) = hid x0 x1 x4 x5 r j := by
  unfold val_main_v12
  refine (concatenate_pair_apply_left (1 : Fin S8192x256.rank) _ _ concatenates_S8192x128_S8192x128_S8192x256_d1
    (ix2 r (upper j)) rfl (ix2 r j) (fun b => by match b with | ⟨0, _⟩ => rfl | ⟨1, _⟩ => rfl)).trans ?_
  exact hid_eq x0 x1 x4 x5 r j

/-- A column of the join from 128 on is the column 128 earlier of g. -/
theorem join_lower (r : Fin 8192) (j : Fin 128) :
    val_main_v12 (F := Ideal) x0 x1 x2 x3 x4 x5 x6 x7 (ix2 r (lower j)) = edg x2 x3 x6 x7 r j := by
  unfold val_main_v12
  refine (concatenate_pair_apply_right (1 : Fin S8192x256.rank) _ _ concatenates_S8192x128_S8192x128_S8192x256_d1
    (ix2 r (lower j)) rfl rfl (ix2 r j)
    (fun b hb => by match b, hb with | ⟨0, _⟩, _ => rfl | ⟨1, _⟩, hb => exact absurd rfl hb)
    (by show j.val + 128 = 128 + j.val; omega)).trans ?_
  exact edg_eq x2 x3 x6 x7 r j

/-- [h | g] · W2 at (r, c): the sum over the 256 joined columns is the sum over h's plus the sum over g's. -/
theorem mix_eq (r : Fin 8192) (c : Fin 40) :
    val_main_v13 (F := Ideal) x0 x1 x2 x3 x4 x5 x6 x7 x8 (ix2 r c) = mix x0 x1 x2 x3 x4 x5 x6 x7 x8 r c := by
  rw [val_main_v13_apply]
  unfold mix
  refine (Fin.sum_univ_add (a := 128) (b := 128) (fun k : Fin (128 + 128) =>
    val_main_v12 (F := Ideal) x0 x1 x2 x3 x4 x5 x6 x7 (lidx_main_v13 (ix2 r c) k) * x8 (ridx_main_v13 (ix2 r c) k))).trans ?_
  refine congrArg₂ (· + ·) (Finset.sum_congr rfl fun j _ => ?_) (Finset.sum_congr rfl fun j _ => ?_)
  · rw [show lidx_main_v13 (ix2 r c) (Fin.castAdd 128 j) = ix2 r (upper j) by idx2,
      show ridx_main_v13 (ix2 r c) (Fin.castAdd 128 j) = ix2 (upper j) c by idx2, join_upper]
  · rw [show lidx_main_v13 (ix2 r c) (Fin.natAdd 128 j) = ix2 r (lower j) by idx2,
      show ridx_main_v13 (ix2 r c) (Fin.natAdd 128 j) = ix2 (lower j) c by idx2, join_lower]

/-! ## The logits -/

/-- adj · ([h | g] · W2) + b2 at (r, c). -/
theorem logit_eq (r : Fin 8192) (c : Fin 40) :
    val_main_v17 (F := Ideal) x0 x1 x2 x3 x4 x5 x6 x7 x8 x9 (ix2 r c) = logit x0 x1 x2 x3 x4 x5 x6 x7 x8 x9 r c := by
  rw [val_main_v17_apply, val_main_v14_apply, val_main_v16_apply, val_main_v15_apply, Ideal.addf_def]
  unfold logit
  refine congrArg₂ (· + ·) (Finset.sum_congr rfl fun t _ => ?_) (congrArg x9 (by idx1))
  rw [show lidx_main_v14 (ix2 r c) t = ix2 r t by idx2, show ridx_main_v14 (ix2 r c) t = ix2 t c by idx2, mix_eq]

/-! ## The row-wise log-softmax -/

/-- The row's largest logit: the fold of max from -∞ over the row, then max (-∞) with it. -/
theorem rowMax_eq (r : Fin 8192) :
    val_main_call2_v2 (F := Ideal) x0 x1 x2 x3 x4 x5 x6 x7 x8 x9 (ix1 r) = rowMax x0 x1 x2 x3 x4 x5 x6 x7 x8 x9 r := by
  rw [val_main_call2_v2_apply, val_main_call2_v1_apply, val_main_call2_cst_0_apply, Ideal.maximumf_def, Ideal.ofBits_def,
    negInf_eq_bot, bot_sup_eq]
  unfold val_main_call2_v0
  rw [Host.reduce_eq_fold_single FloatOps.maximumf _ _ reducesTo_S8192x40_S8192_d1 (by decide) h_S_ (ix1 r),
    val_main_call2_cst_apply, Ideal.ofBits_def, negInf_eq_bot]
  unfold rowMax
  refine congrArg (fun f => Finset.fold max ⊥ f Finset.univ) (funext fun k => ?_)
  refine Eq.trans (congrArg (val_main_v17 (F := Ideal) x0 x1 x2 x3 x4 x5 x6 x7 x8 x9) ?_) (logit_eq x0 x1 x2 x3 x4 x5 x6 x7 x8 x9 r k)
  exact funext fun a => Fin.ext (by match a with | ⟨0, _⟩ => rfl | ⟨1, _⟩ => rfl)

/-- A logit less its row's largest. -/
theorem shift_eq (r : Fin 8192) (c : Fin 40) :
    val_main_call2_v5 (F := Ideal) x0 x1 x2 x3 x4 x5 x6 x7 x8 x9 (ix2 r c)
      = logit x0 x1 x2 x3 x4 x5 x6 x7 x8 x9 r c - rowMax x0 x1 x2 x3 x4 x5 x6 x7 x8 x9 r := by
  rw [val_main_call2_v5_apply, val_main_call2_v4_apply, val_main_call2_v3_apply, Ideal.subf_def, logit_eq,
    show idx_main_call2_v3 (idx_main_call2_v4 (ix2 r c)) = ix1 r by idx1, rowMax_eq]

/-- The log-softmax at (r, c). -/
theorem out_eq (r : Fin 8192) (c : Fin 40) :
    val_main_v18 (F := Ideal) x0 x1 x2 x3 x4 x5 x6 x7 x8 x9 (ix2 r c) = out x0 x1 x2 x3 x4 x5 x6 x7 x8 x9 r c := by
  rw [val_main_v18_apply, val_main_call2_v10_apply, val_main_call2_v9_apply, val_main_call2_v8_apply,
    val_main_call2_v7_apply, val_main_call2_cst_1_apply, shift_eq, Ideal.subf_def, Ideal.hostUnary_log_def, Ideal.ofBits_def,
    Ideal.ofBits_zero_f32, zero_add]
  unfold out
  refine congrArg (fun s => _ - Ideal.log s) (Finset.sum_congr rfl fun k _ => ?_)
  rw [val_main_call2_v6_apply, Ideal.hostUnary_exp_def,
    show idx_main_call2_v7 (idx_main_call2_v8 (idx_main_call2_v10 (ix2 r c))) k = ix2 r k by idx2, shift_eq]

/-! ## The whole result -/

/-- The reference's result array is the specification's. -/
theorem ref_eq (x0 : (⟨S8192x128, .f32⟩ : BufTy).Contents (Elt Ideal)) (x1 : (⟨S8192x8192, .f32⟩ : BufTy).Contents (Elt Ideal))
    (x2 : (⟨S16384x16, .f32⟩ : BufTy).Contents (Elt Ideal)) (x3 : (⟨S8192x16384, .f32⟩ : BufTy).Contents (Elt Ideal))
    (x4 : (⟨S128x128, .f32⟩ : BufTy).Contents (Elt Ideal)) (x5 : (⟨S128, .f32⟩ : BufTy).Contents (Elt Ideal))
    (x6 : (⟨S16x128, .f32⟩ : BufTy).Contents (Elt Ideal)) (x7 : (⟨S128, .f32⟩ : BufTy).Contents (Elt Ideal))
    (x8 : (⟨S256x40, .f32⟩ : BufTy).Contents (Elt Ideal)) (x9 : (⟨S40, .f32⟩ : BufTy).Contents (Elt Ideal)) :
    val_main_v18 (F := Ideal) x0 x1 x2 x3 x4 x5 x6 x7 x8 x9 = Cert.LineGcn.result x0 x1 x2 x3 x4 x5 x6 x7 x8 x9 := by
  funext i
  obtain ⟨r, c, rfl⟩ : ∃ (r : Fin 8192) (c : Fin 40), i = ix2 r c := ⟨i 0, i 1, eq_ix2 i⟩
  exact out_eq x0 x1 x2 x3 x4 x5 x6 x7 x8 x9 r c

end Cert.LineGcn.Ref

end
-- ==== Proof.KernelRun.lean ====
/-
  The idealized kernel's run with EVERY buffer named.

  @main is five kernel regions among two stretches of host operations.  The buffer contents at each boundary are
  a fold through @main from the launch memory (the generated `W0 … W7`): a region replaces its arrays by what
  its write-backs leave, a stretch of host operations by what the operations compute.  Every weakly fair
  execution terminates, and every final state holds each unscoped buffer at the last boundary's contents `W7`:
  the generated frame's launch over the same segments, read at every buffer instead of at the arguments only.
-/
import proofs.«167551_g84756884620005_cont_sun_c4_91_1_alg».proof.Proof.Gen.KernelIdeal.Frame

set_option maxRecDepth 16384

noncomputable section

namespace Cert.LineGcn.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and the final state holds every unscoped
    buffer of every core at the contents the fold through @main gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The same run read at @main's result and at its arguments: the result buffer ends at the last boundary's
    contents, each argument as launched. -/
theorem run_result : θ_run defs (onTc (τ := τ) (main (F := F))) ⟨m, fun _ => 0, ρ⟩ (fun r => ∀ c : Dev nD,
      r.2.mem ((c.tc : Thread nD τ).loc main_v21) = W7 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨h c _ (mem_uc main_v21 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)
    (run_all m ρ)

end Cert.LineGcn.Run

end
-- ==== Proof.Pay01.lean ====
/-
  The first two regions' bodies read at an entry: a matrix product.

  Each body is one product of a row block by a whole weight array, accumulated into zeros.  On the extended reals that
  product, read at (p, q), is the sum over the contracted axis a of left (p, a) · right (a, q): the zero accumulator
  contributes 0 and nothing is rounded.  The general statement is for any [M, K] by [K, N] product that contracts the
  left operand's second axis with the right operand's first; the two bodies are its instances at
  [1024, 128] · [128, 128] and [1024, 16] · [16, 128].
-/
import proofs.«167551_g84756884620005_cont_sun_c4_91_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.LineGcn.Pay

open Cert.KernelIdeal Cert.KernelIdeal.Gen Idealize.ShloMosaic Idealize.ShloMosaic.ValueIdx
open scoped BigOperators

/-- A product of an [M, K] by a [K, N] operand, the left operand's axis 1 contracted with the right operand's axis 0,
    accumulated into the zero splat, read at (p, q): the sum over the contraction coordinate of the products. -/
theorem matmul_plain_apply {M K N : Nat} {φ₁ φ₂ : FTy}
    (D : DotDims ⟨2, ![M, K]⟩ ⟨2, ![K, N]⟩ ⟨2, ![M, N]⟩) (hD : D = DotDims.plain M K N)
    (A : FVec Ideal ⟨2, ![M, K]⟩ φ₁) (B : FVec Ideal ⟨2, ![K, N]⟩ φ₂) (p : Fin M) (q : Fin N) :
    FloatOps.matmul D none A B (constant (F := Ideal) ⟨2, ![M, N]⟩ .f32 0x00000000#32) (ix2 p q)
      = ∑ a : Fin K, A (ix2 p a) * B (ix2 a q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => rfl)
  rw [el, er]

/-- The first region's body at (p, q): Σ_a x0 (p, a) · x1 (a, q) over the 128 columns of the row block. -/
theorem pay0 (x0 : Vec Ideal S1024x128 .f32) (x1 : Vec Ideal S128x128 .f32) (p : Fin 1024) (q : Fin 128) :
    k0_pay1 (F := Ideal) x0 x1 (ix2 p q) = ∑ a : Fin 128, x0 (ix2 p a) * x1 (ix2 a q) := by
  unfold k0_pay1
  exact matmul_plain_apply dot_S1024x128_S128x128_S1024x128_1_0_0_1_n_n rfl _ _ p q

/-- The second region's body at (p, q): Σ_a x0 (p, a) · x1 (a, q) over the 16 columns of the row block. -/
theorem pay1 (x0 : Vec Ideal S1024x16 .f32) (x1 : Vec Ideal S16x128 .f32) (p : Fin 1024) (q : Fin 128) :
    k1_pay1 (F := Ideal) x0 x1 (ix2 p q) = ∑ a : Fin 16, x0 (ix2 p a) * x1 (ix2 a q) := by
  unfold k1_pay1
  exact matmul_plain_apply dot_S1024x16_S16x128_S1024x128_1_0_0_1_n_n rfl _ _ p q

end Cert.LineGcn.Pay

end
-- ==== Proof.Reg0.lean ====
/-
  Region 0: the node projection u = x · W1, computed in eight blocks of 1024 rows.

  Grid point t loads rows 1024·t … 1024·t + 1023 of x and all of W1 and writes the same rows of u; the eight
  blocks tile u, so after the region u holds, at (r, j), the sum over a of x (r, a) · W1 (a, j) — whatever the
  region found in u.
-/
import proofs.«167551_g84756884620005_cont_sun_c4_91_1_alg».proof.Proof.Gen.KernelIdeal.Frame
import proofs.«167551_g84756884620005_cont_sun_c4_91_1_alg».proof.Proof.Pay01
import Idealize.ShloMosaic.Lib.Pipeline.Value

set_option maxRecDepth 16384

noncomputable section

namespace Cert.LineGcn.Glue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

theorem zero2 : (![0, 0] : Fin 2 → Nat) = fun _ => 0 := funext fun a => by fin_cases a <;> rfl

/-- A product of two array reads, re-read at equal indices. -/
theorem mul_congr_idx {S T : Shape} (A : S.Idx → EReal) (B : T.Idx → EReal) (i i' : S.Idx) (k k' : T.Idx) (hi : i = i') (hk : k = k') :
    A i * B k = A i' * B k' := by rw [hi, hk]

/-- A sum of an array read and a term, re-read at an equal index. -/
theorem add_congr_idx {S : Shape} (Z : S.Idx → EReal) (i i' : S.Idx) (x x' : EReal) (hi : i = i') (hx : x = x') :
    Z i + x = Z i' + x' := by rw [hi, hx]

/-- One summand of a rectified layer followed by a weight, `max (Σ_t A · U + B) 0 · W`, re-read at equal indices. -/
theorem layer_congr {S0 S1 S2 S3 : Shape} {K : Nat} (A : S0.Idx → EReal) (U : S1.Idx → EReal) (B : S2.Idx → EReal) (W : S3.Idx → EReal)
    (a a' : Fin K → S0.Idx) (u u' : Fin K → S1.Idx) (b b' : S2.Idx) (w w' : S3.Idx)
    (ha : a = a') (hu : u = u') (hb : b = b') (hw : w = w') :
    max ((∑ t : Fin K, A (a t) * U (u t)) + B b) 0 * W w = max ((∑ t : Fin K, A (a' t) * U (u' t)) + B b') 0 * W w' := by
  rw [ha, hu, hb, hw]

variable (V : (c : Dev nD) → (b : Ref sig .tc) → Buf (Elt Ideal) ((c : Thread nD τ).loc b))

/-- The product of a [8192, 128] array with a [128, 128] array, index by index. -/
def prodU (X : S8192x128.Idx → Elt Ideal .f32) (W : S128x128.Idx → Elt Ideal .f32) : S8192x128.Idx → Elt Ideal .bf16 :=
  fun i => ∑ a : Fin 128, X (ix2 (i 0) a) * W (ix2 a (i 1))

/-- The printed index maps over the grid: the row-block windows sit at block (t, 0), the whole-array window at (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays the region finds at x and W1. -/
theorem flushed0 (c : Dev nD) (t : Fin cfg0.N) :
    (dat0 V c).flushed 2 t = ((cfg0.win 2).blk t).view.read (Elt Ideal) (prodU (V c main_arg0) (V c main_arg4)) := by
  show (cfg0.win 2).cut (grid0.coords t) ((dat0 V c).after 2 t) = _
  rw [after0_2]
  unfold out0_2
  rw [View.canon_unit_zero zero2]
  simp only [View.ld_unit_zero (S := S1024x128) zero2, View.ld_unit_zero (S := S128x128) zero2]
  obtain ⟨e0, e1, e2, e3, e4, e5⟩ := idx0 t
  funext j
  obtain ⟨p, q, rfl⟩ : ∃ (p : Fin 1024) (q : Fin 128), j = ix2 p q := ⟨j 0, j 1, eq_ix2 j⟩
  show k0_pay1 (iblk0 V c 0 t) (iblk0 V c 1 t) (ix2 p q) = prodU (V c main_arg0) (V c main_arg4) (((cfg0.win 2).blk t).view.emb (ix2 p q))
  refine (Pay.pay0 (iblk0 V c 0 t) (iblk0 V c 1 t) p q).trans ?_
  unfold prodU
  refine Finset.sum_congr rfl fun a _ => ?_
  have h0 : ((cfg0.win 0).blk t).view.emb (ix2 p a) = ix2 ((((cfg0.win 2).blk t).view.emb (ix2 p q)) 0) a := by
    funext d; apply Fin.ext
    match d with
    | ⟨0, _⟩ => show win0_0.index t (0 : Fin 2) * 1024 + 1 * p.val = win0_2.index t (0 : Fin 2) * 1024 + 1 * p.val; omega
    | ⟨1, _⟩ => show win0_0.index t (1 : Fin 2) * 128 + 1 * a.val = a.val; omega
  have h1 : ((cfg0.win 1).blk t).view.emb (ix2 a q) = ix2 a ((((cfg0.win 2).blk t).view.emb (ix2 p q)) 1) := by
    funext d; apply Fin.ext
    match d with
    | ⟨0, _⟩ => show win0_1.index t (0 : Fin 2) * 128 + 1 * a.val = a.val; omega
    | ⟨1, _⟩ => show win0_1.index t (1 : Fin 2) * 128 + 1 * q.val = win0_2.index t (1 : Fin 2) * 128 + 1 * q.val; omega
  exact mul_congr_idx (V c main_arg0) (V c main_arg4) _ _ _ _ h0 h1

/-- An index of u is in point t's block iff its coordinates are in the block's ranges. -/
theorem mem_blk0 (t : Fin cfg0.N) (i : S8192x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v0).slice (win0_2.rect t)).set ↔ _
  rw [View.set_slice_whole, Rect.mem_set_unit]
  exact Iff.rfl

/-- Every block row is some point's. -/
theorem onto0 : ∀ q0 : Fin 8, ∃ t : Fin cfg0.N, t.val = q0.val :=
  (by decide +kernel : ∀ q0 : Fin 8, ∃ t : Fin grid0.N, t.val = q0.val)

/-- The eight blocks cover u. -/
theorem cover0 (i : S8192x128.Idx) : ∃ t : Fin cfg0.N, (cfg0.win 2).flush t = true ∧ i ∈ ((cfg0.win 2).blk t).view.set := by
  have hi0 : (i 0).val < 8192 := (i 0).isLt
  have hi1 : (i 1).val < 128 := (i 1).isLt
  obtain ⟨t, ht⟩ := onto0 ⟨(i 0).val / 1024, by omega⟩
  have ht' : t.val = (i 0).val / 1024 := ht
  obtain ⟨e0, e1, e2, e3, e4, e5⟩ := idx0 t
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 128 ≤ (i 1).val ∧ (i 1).val < win0_2.index t (1 : Fin 2) * 128 + 128; omega

/-- After region 0, u is the product of what the region found at x and W1. -/
theorem final0 (c : Dev nD) : (dat0 V c).arrAt 2 cfg0.N = prodU (V c main_arg0) (V c main_arg4) :=
  (dat0 V c).arrAt_eq_of_cover 2 _ (fun t _ => flushed0 V c t) cover0

end Cert.LineGcn.Glue

end
-- ==== Proof.Reg1.lean ====
/-
  Region 1: the edge projection v = y · We, computed in sixteen blocks of 1024 rows.

  Grid point t loads rows 1024·t … 1024·t + 1023 of y and all of We and writes the same rows of v; the sixteen
  blocks tile v, so after the region v holds, at (e, j), the sum over a of y (e, a) · We (a, j).
-/
import proofs.«167551_g84756884620005_cont_sun_c4_91_1_alg».proof.Proof.Gen.KernelIdeal.Frame
import proofs.«167551_g84756884620005_cont_sun_c4_91_1_alg».proof.Proof.Pay01
import proofs.«167551_g84756884620005_cont_sun_c4_91_1_alg».proof.Proof.Reg0
import Idealize.ShloMosaic.Lib.Pipeline.Value

set_option maxRecDepth 16384

noncomputable section

namespace Cert.LineGcn.Glue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-- The product of a [16384, 16] array with a [16, 128] array, index by index. -/
def prodV (X : S16384x16.Idx → Elt Ideal .f32) (W : S16x128.Idx → Elt Ideal .f32) : S16384x128.Idx → Elt Ideal .bf16 :=
  fun i => ∑ a : Fin 16, X (ix2 (i 0) a) * W (ix2 a (i 1))

/-- The printed index maps over the grid: the row-block windows sit at block (t, 0), the whole-array window at (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the product of the arrays the region finds at y and We. -/
theorem flushed1 (c : Dev nD) (t : Fin cfg1.N) :
    (dat1 V c).flushed 2 t = ((cfg1.win 2).blk t).view.read (Elt Ideal) (prodV (V c main_arg2) (V c main_arg6)) := by
  show (cfg1.win 2).cut (grid1.coords t) ((dat1 V c).after 2 t) = _
  rw [after1_2]
  unfold out1_2
  rw [View.canon_unit_zero zero2]
  simp only [View.ld_unit_zero (S := S1024x16) zero2, View.ld_unit_zero (S := S16x128) zero2]
  obtain ⟨e0, e1, e2, e3, e4, e5⟩ := idx1 t
  funext j
  obtain ⟨p, q, rfl⟩ : ∃ (p : Fin 1024) (q : Fin 128), j = ix2 p q := ⟨j 0, j 1, eq_ix2 j⟩
  show k1_pay1 (iblk1 V c 0 t) (iblk1 V c 1 t) (ix2 p q) = prodV (V c main_arg2) (V c main_arg6) (((cfg1.win 2).blk t).view.emb (ix2 p q))
  refine (Pay.pay1 (iblk1 V c 0 t) (iblk1 V c 1 t) p q).trans ?_
  unfold prodV
  refine Finset.sum_congr rfl fun a _ => ?_
  have h0 : ((cfg1.win 0).blk t).view.emb (ix2 p a) = ix2 ((((cfg1.win 2).blk t).view.emb (ix2 p q)) 0) a := by
    funext d; apply Fin.ext
    match d with
    | ⟨0, _⟩ => show win1_0.index t (0 : Fin 2) * 1024 + 1 * p.val = win1_2.index t (0 : Fin 2) * 1024 + 1 * p.val; omega
    | ⟨1, _⟩ => show win1_0.index t (1 : Fin 2) * 16 + 1 * a.val = a.val; omega
  have h1 : ((cfg1.win 1).blk t).view.emb (ix2 a q) = ix2 a ((((cfg1.win 2).blk t).view.emb (ix2 p q)) 1) := by
    funext d; apply Fin.ext
    match d with
    | ⟨0, _⟩ => show win1_1.index t (0 : Fin 2) * 16 + 1 * a.val = a.val; omega
    | ⟨1, _⟩ => show win1_1.index t (1 : Fin 2) * 128 + 1 * q.val = win1_2.index t (1 : Fin 2) * 128 + 1 * q.val; omega
  exact mul_congr_idx (V c main_arg2) (V c main_arg6) _ _ _ _ h0 h1

/-- An index of v is in point t's block iff its coordinates are in the block's ranges. -/
theorem mem_blk1 (t : Fin cfg1.N) (i : S16384x128.Idx) :
    i ∈ ((cfg1.win 2).blk t).view.set ↔ ∀ a : Fin 2, win1_2.index t a * S1024x128.size a ≤ (i a).val ∧ (i a).val < win1_2.index t a * S1024x128.size a + S1024x128.size a := by
  show i ∈ ((View.whole main_v1).slice (win1_2.rect t)).set ↔ _
  rw [View.set_slice_whole, Rect.mem_set_unit]
  exact Iff.rfl

/-- Every block row is some point's. -/
theorem onto1 : ∀ q0 : Fin 16, ∃ t : Fin cfg1.N, t.val = q0.val :=
  (by decide +kernel : ∀ q0 : Fin 16, ∃ t : Fin grid1.N, t.val = q0.val)

/-- The sixteen blocks cover v. -/
theorem cover1 (i : S16384x128.Idx) : ∃ t : Fin cfg1.N, (cfg1.win 2).flush t = true ∧ i ∈ ((cfg1.win 2).blk t).view.set := by
  have hi0 : (i 0).val < 16384 := (i 0).isLt
  have hi1 : (i 1).val < 128 := (i 1).isLt
  obtain ⟨t, ht⟩ := onto1 ⟨(i 0).val / 1024, by omega⟩
  have ht' : t.val = (i 0).val / 1024 := ht
  obtain ⟨e0, e1, e2, e3, e4, e5⟩ := idx1 t
  refine ⟨t, flush1_2 t, ?_⟩
  rw [mem_blk1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 128 ≤ (i 1).val ∧ (i 1).val < win1_2.index t (1 : Fin 2) * 128 + 128; omega

/-- After region 1, v is the product of what the region found at y and We. -/
theorem final1 (c : Dev nD) : (dat1 V c).arrAt 2 cfg1.N = prodV (V c main_arg2) (V c main_arg6) :=
  (dat1 V c).arrAt_eq_of_cover 2 _ (fun t _ => flushed1 V c t) cover1

end Cert.LineGcn.Glue

end
-- ==== Proof.Pay2.lean ====
/-
  The third region's body read at an entry.

  The body rectifies a product plus a bias row and multiplies the result by a weight block: max (x0 · x1 + x2) 0 · x3,
  with x0 a [256, 8192] row block, x1 [8192, 128], x2 a [1, 128] row broadcast down the rows and x3 [128, 128].  On
  the extended reals the narrowing casts are identities and each product into the zero accumulator is the sum over its
  contracted axis, so entry (p, q) is Σ_j max (Σ_t x0 (p, t) · x1 (t, j) + x2 (0, j)) 0 · x3 (j, q).
-/
import proofs.«167551_g84756884620005_cont_sun_c4_91_1_alg».proof.Proof.Gen.KernelIdeal.Skeleton
import proofs.«167551_g84756884620005_cont_sun_c4_91_1_alg».proof.Proof.Pay01
import Idealize.ShloMosaic.Lib.ValueIdx
import Idealize.ShloMosaic.Lib.ValueLayout
import Idealize.ShloMosaic.Lib.Pipeline.Value
import Idealize.ShloMosaic.PureOps.Ideal.Laws

noncomputable section

namespace Cert.LineGcn.Pay

open Cert.KernelIdeal Cert.KernelIdeal.Gen Idealize.ShloMosaic Idealize.ShloMosaic.ValueIdx
open scoped BigOperators

/-- The third region's body at (p, q): Σ_j max (Σ_t x0 (p, t) · x1 (t, j) + x2 (0, j)) 0 · x3 (j, q). -/
theorem pay2 (x0 : Vec Ideal S256x8192 .f32) (x1 : Vec Ideal S8192x128 .bf16) (x2 : Vec Ideal S1x128 .f32)
    (x3 : Vec Ideal S128x128 .bf16) (p : Fin 256) (q : Fin 128) :
    k2_pay1 (F := Ideal) x0 x1 x2 x3 (ix2 p q)
      = ∑ j : Fin 128, max ((∑ t : Fin 8192, x0 (ix2 p t) * x1 (ix2 t j)) + x2 (ix2 (0 : Fin 1) j)) 0 * x3 (ix2 j q) := by
  unfold k2_pay1
  refine (matmul_plain_apply dot_S256x128_S128x128_S256x128_1_0_0_1_n_n rfl _ _ p q).trans ?_
  refine Finset.sum_congr rfl fun j _ => ?_
  rw [shapeCast_self, shapeCast_self, shapeCast_self]
  simp only [matmul, truncf_apply, maximumf_apply, addf_apply, broadcast_apply]
  rw [broadcastTo_1b_ab_apply]
  have hm := matmul_plain_apply (φ₁ := .bf16) (φ₂ := .bf16) dot_S256x8192_S8192x128_S256x128_1_0_0_1_n_n rfl
    (truncf .bf16 x0 bitsLt_bf16_f32) x1 p j
  simp only [truncf_apply] at hm
  rw [hm]
  show max _ (Ideal.ofBits .f32 0x00000000#32) * _ = _
  rw [Ideal.ofBits_zero_f32]

end Cert.LineGcn.Pay

end
-- ==== Proof.Reg2.lean ====
/-
  Region 2: the node layer folded into the upper half of the class weights, in 32 blocks of 256 rows.

  Grid point t loads rows 256·t … 256·t + 255 of adj, all of u, the bias row and the padded upper weights, and
  writes the same rows of za: at (r, c) the sum over j of max (Σ_k adj (r, k) · u (k, j) + b1 j) 0 · w (j, c).
  The 32 blocks tile za.
-/
import proofs.«167551_g84756884620005_cont_sun_c4_91_1_alg».proof.Proof.Gen.KernelIdeal.Frame
import proofs.«167551_g84756884620005_cont_sun_c4_91_1_alg».proof.Proof.Pay2
import proofs.«167551_g84756884620005_cont_sun_c4_91_1_alg».proof.Proof.Reg0
import Idealize.ShloMosaic.Lib.Pipeline.Value

set_option maxRecDepth 16384

noncomputable section

namespace Cert.LineGcn.Glue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-- A rectified layer `max (A · U + B) 0` followed by the product with `W`, index by index. -/
def passA (A : S8192x8192.Idx → Elt Ideal .f32) (U : S8192x128.Idx → Elt Ideal .bf16) (B : S1x128.Idx → Elt Ideal .f32)
    (W : S128x128.Idx → Elt Ideal .bf16) : S8192x128.Idx → Elt Ideal .f32 :=
  fun i => ∑ j : Fin 128, max ((∑ t : Fin 8192, A (ix2 (i 0) t) * U (ix2 t j)) + B (ix2 (0 : Fin 1) j)) 0 * W (ix2 j (i 1))

/-- The printed index maps over the grid: the row-block windows sit at block (t, 0), the whole-array windows at (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is block t of `passA` of the arrays the region finds. -/
theorem flushed2 (c : Dev nD) (t : Fin cfg2.N) :
    (dat2 V c).flushed 4 t = ((cfg2.win 4).blk t).view.read (Elt Ideal) (passA (V c main_arg1) (V c main_v0) (V c main_v16) (V c main_v6)) := by
  show (cfg2.win 4).cut (grid2.coords t) ((dat2 V c).after 4 t) = _
  rw [after2_4]
  unfold out2_4
  rw [View.canon_unit_zero zero2]
  simp only [View.ld_unit_zero (S := S256x8192) zero2, View.ld_unit_zero (S := S8192x128) zero2,
    View.ld_unit_zero (S := S1x128) zero2, View.ld_unit_zero (S := S128x128) zero2]
  obtain ⟨e0, e1, e2, e3, e4, e5, e6, e7, e8, e9⟩ := idx2 t
  funext j
  obtain ⟨p, q, rfl⟩ : ∃ (p : Fin 256) (q : Fin 128), j = ix2 p q := ⟨j 0, j 1, eq_ix2 j⟩
  show k2_pay1 (iblk2 V c 0 t) (iblk2 V c 1 t) (iblk2 V c 2 t) (iblk2 V c 3 t) (ix2 p q)
    = passA (V c main_arg1) (V c main_v0) (V c main_v16) (V c main_v6) (((cfg2.win 4).blk t).view.emb (ix2 p q))
  refine (Pay.pay2 (iblk2 V c 0 t) (iblk2 V c 1 t) (iblk2 V c 2 t) (iblk2 V c 3 t) p q).trans ?_
  unfold passA
  refine Finset.sum_congr rfl fun j _ => ?_
  have h0 : (fun s : Fin 8192 => ((cfg2.win 0).blk t).view.emb (ix2 p s)) = fun s => ix2 ((((cfg2.win 4).blk t).view.emb (ix2 p q)) 0) s := by
    funext s d; apply Fin.ext
    match d with
    | ⟨0, _⟩ => show win2_0.index t (0 : Fin 2) * 256 + 1 * p.val = win2_4.index t (0 : Fin 2) * 256 + 1 * p.val; omega
    | ⟨1, _⟩ => show win2_0.index t (1 : Fin 2) * 8192 + 1 * s.val = s.val; omega
  have h1 : (fun s : Fin 8192 => ((cfg2.win 1).blk t).view.emb (ix2 s j)) = fun s => ix2 s j := by
    funext s d; apply Fin.ext
    match d with
    | ⟨0, _⟩ => show win2_1.index t (0 : Fin 2) * 8192 + 1 * s.val = s.val; omega
    | ⟨1, _⟩ => show win2_1.index t (1 : Fin 2) * 128 + 1 * j.val = j.val; omega
  have h2 : ((cfg2.win 2).blk t).view.emb (ix2 (0 : Fin 1) j) = ix2 (0 : Fin 1) j := by
    funext d; apply Fin.ext
    match d with
    | ⟨0, _⟩ => show win2_2.index t (0 : Fin 2) * 1 + 1 * 0 = 0; omega
    | ⟨1, _⟩ => show win2_2.index t (1 : Fin 2) * 128 + 1 * j.val = j.val; omega
  have h3 : ((cfg2.win 3).blk t).view.emb (ix2 j q) = ix2 j ((((cfg2.win 4).blk t).view.emb (ix2 p q)) 1) := by
    funext d; apply Fin.ext
    match d with
    | ⟨0, _⟩ => show win2_3.index t (0 : Fin 2) * 128 + 1 * j.val = j.val; omega
    | ⟨1, _⟩ => show win2_3.index t (1 : Fin 2) * 128 + 1 * q.val = win2_4.index t (1 : Fin 2) * 128 + 1 * q.val; omega
  exact layer_congr (V c main_arg1) (V c main_v0) (V c main_v16) (V c main_v6) _ _ _ _ _ _ _ _ h0 h1 h2 h3

/-- An index of za is in point t's block iff its coordinates are in the block's ranges. -/
theorem mem_blk2 (t : Fin cfg2.N) (i : S8192x128.Idx) :
    i ∈ ((cfg2.win 4).blk t).view.set ↔ ∀ a : Fin 2, win2_4.index t a * S256x128.size a ≤ (i a).val ∧ (i a).val < win2_4.index t a * S256x128.size a + S256x128.size a := by
  show i ∈ ((View.whole main_v18).slice (win2_4.rect t)).set ↔ _
  rw [View.set_slice_whole, Rect.mem_set_unit]
  exact Iff.rfl

/-- Every block row is some point's. -/
theorem onto2 : ∀ q0 : Fin 32, ∃ t : Fin cfg2.N, t.val = q0.val :=
  (by decide +kernel : ∀ q0 : Fin 32, ∃ t : Fin grid2.N, t.val = q0.val)

/-- The 32 blocks cover za. -/
theorem cover2 (i : S8192x128.Idx) : ∃ t : Fin cfg2.N, (cfg2.win 4).flush t = true ∧ i ∈ ((cfg2.win 4).blk t).view.set := by
  have hi0 : (i 0).val < 8192 := (i 0).isLt
  have hi1 : (i 1).val < 128 := (i 1).isLt
  obtain ⟨t, ht⟩ := onto2 ⟨(i 0).val / 256, by omega⟩
  have ht' : t.val = (i 0).val / 256 := ht
  obtain ⟨e0, e1, e2, e3, e4, e5, e6, e7, e8, e9⟩ := idx2 t
  refine ⟨t, flush2_4 t, ?_⟩
  rw [mem_blk2]
  intro a
  match a with
  | ⟨0, _⟩ => show win2_4.index t (0 : Fin 2) * 256 ≤ (i 0).val ∧ (i 0).val < win2_4.index t (0 : Fin 2) * 256 + 256; omega
  | ⟨1, _⟩ => show win2_4.index t (1 : Fin 2) * 128 ≤ (i 1).val ∧ (i 1).val < win2_4.index t (1 : Fin 2) * 128 + 128; omega

/-- After region 2, za is `passA` of what the region found at adj, u, the bias row and the padded upper weights. -/
theorem final2 (c : Dev nD) : (dat2 V c).arrAt 4 cfg2.N = passA (V c main_arg1) (V c main_v0) (V c main_v16) (V c main_v6) :=
  (dat2 V c).arrAt_eq_of_cover 4 _ (fun t _ => flushed2 V c t) cover2

end Cert.LineGcn.Glue

end
-- ==== Proof.Pay3.lean ====
/-
  The fourth region's body read at an entry.

  The body adds, to the block x4 it finds, a rectified product plus a bias row multiplied by a weight block:
  x4 + max (x0 · x1 + x2) 0 · x3, with x0 a [128, 16384] row block, x1 [16384, 128], x2 a [1, 128] row broadcast down
  the rows and x3 [128, 128].  On the extended reals the narrowing casts are identities and each product into the zero
  accumulator is the sum over its contracted axis, so entry (p, q) is
  x4 (p, q) + Σ_j max (Σ_t x0 (p, t) · x1 (t, j) + x2 (0, j)) 0 · x3 (j, q).
-/
import proofs.«167551_g84756884620005_cont_sun_c4_91_1_alg».proof.Proof.Gen.KernelIdeal.Skeleton
import proofs.«167551_g84756884620005_cont_sun_c4_91_1_alg».proof.Proof.Pay01
import Idealize.ShloMosaic.Lib.ValueIdx
import Idealize.ShloMosaic.Lib.ValueLayout
import Idealize.ShloMosaic.Lib.Pipeline.Value
import Idealize.ShloMosaic.PureOps.Ideal.Laws

noncomputable section

namespace Cert.LineGcn.Pay

open Cert.KernelIdeal Cert.KernelIdeal.Gen Idealize.ShloMosaic Idealize.ShloMosaic.ValueIdx
open scoped BigOperators

/-- The fourth region's body at (p, q): x4 (p, q) + Σ_j max (Σ_t x0 (p, t) · x1 (t, j) + x2 (0, j)) 0 · x3 (j, q). -/
theorem pay3 (x0 : Vec Ideal S128x16384 .f32) (x1 : Vec Ideal S16384x128 .bf16) (x2 : Vec Ideal S1x128 .f32)
    (x4 : Vec Ideal S128x128 .f32) (x3 : Vec Ideal S128x128 .bf16) (p q : Fin 128) :
    k3_pay1 (F := Ideal) x0 x1 x2 x4 x3 (ix2 p q)
      = x4 (ix2 p q)
        + ∑ j : Fin 128, max ((∑ t : Fin 16384, x0 (ix2 p t) * x1 (ix2 t j)) + x2 (ix2 (0 : Fin 1) j)) 0 * x3 (ix2 j q) := by
  unfold k3_pay1
  rw [shapeCast_self, shapeCast_self, shapeCast_self, shapeCast_self]
  simp only [truncf_apply, addf_apply]
  refine congrArg (x4 (ix2 p q) + ·) ?_
  refine (matmul_plain_apply (φ₁ := .bf16) (φ₂ := .bf16) dot_S128x128_S128x128_S128x128_1_0_0_1_n_n rfl _ x3 p q).trans ?_
  refine Finset.sum_congr rfl fun j _ => ?_
  simp only [matmul, truncf_apply, maximumf_apply, addf_apply, broadcast_apply]
  rw [broadcastTo_1b_ab_apply]
  have hm := matmul_plain_apply (φ₁ := .bf16) (φ₂ := .bf16) dot_S128x16384_S16384x128_S128x128_1_0_0_1_n_n rfl
    (truncf .bf16 x0 bitsLt_bf16_f32) x1 p j
  simp only [truncf_apply] at hm
  rw [hm]
  show max _ (Ideal.ofBits .f32 0x00000000#32) * _ = _
  rw [Ideal.ofBits_zero_f32]

end Cert.LineGcn.Pay

end
-- ==== Proof.Reg3.lean ====
/-
  Region 3: the edge layer folded into the lower half of the class weights and added to za, in 64 blocks of 128 rows.

  Grid point t loads rows 128·t … 128·t + 127 of inc and of za, all of v, the bias row and the padded lower
  weights, and writes the same rows of z: at (r, c), za (r, c) plus the sum over j of
  max (Σ_e inc (r, e) · v (e, j) + be j) 0 · w (j, c).  The 64 blocks tile z.
-/
import proofs.«167551_g84756884620005_cont_sun_c4_91_1_alg».proof.Proof.Gen.KernelIdeal.Frame
import proofs.«167551_g84756884620005_cont_sun_c4_91_1_alg».proof.Proof.Pay3
import proofs.«167551_g84756884620005_cont_sun_c4_91_1_alg».proof.Proof.Reg0
import Idealize.ShloMosaic.Lib.Pipeline.Value

set_option maxRecDepth 16384

noncomputable section

namespace Cert.LineGcn.Glue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-- `Za` plus a rectified layer `max (A · U + B) 0` followed by the product with `W`, index by index. -/
def passB (A : S8192x16384.Idx → Elt Ideal .f32) (U : S16384x128.Idx → Elt Ideal .bf16) (B : S1x128.Idx → Elt Ideal .f32)
    (W : S128x128.Idx → Elt Ideal .bf16) (Za : S8192x128.Idx → Elt Ideal .f32) : S8192x128.Idx → Elt Ideal .bf16 :=
  fun i => Za i + ∑ j : Fin 128, max ((∑ t : Fin 16384, A (ix2 (i 0) t) * U (ix2 t j)) + B (ix2 (0 : Fin 1) j)) 0 * W (ix2 j (i 1))

/-- The printed index maps over the grid: the row-block windows sit at block (t, 0), the whole-array windows at (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- What point t writes back is block t of `passB` of the arrays the region finds. -/
theorem flushed3 (c : Dev nD) (t : Fin cfg3.N) :
    (dat3 V c).flushed 5 t = ((cfg3.win 5).blk t).view.read (Elt Ideal)
      (passB (V c main_arg3) (V c main_v1) (V c main_v17) (V c main_v11) (V c main_v18)) := by
  show (cfg3.win 5).cut (grid3.coords t) ((dat3 V c).after 5 t) = _
  rw [after3_5]
  unfold out3_5
  rw [View.canon_unit_zero zero2]
  simp only [View.ld_unit_zero (S := S128x16384) zero2, View.ld_unit_zero (S := S16384x128) zero2,
    View.ld_unit_zero (S := S1x128) zero2, View.ld_unit_zero (S := S128x128) zero2]
  obtain ⟨e0, e1, e2, e3, e4, e5, e6, e7, e8, e9, e10, e11⟩ := idx3 t
  funext j
  obtain ⟨p, q, rfl⟩ : ∃ (p : Fin 128) (q : Fin 128), j = ix2 p q := ⟨j 0, j 1, eq_ix2 j⟩
  show k3_pay1 (iblk3 V c 0 t) (iblk3 V c 1 t) (iblk3 V c 2 t) (iblk3 V c 4 t) (iblk3 V c 3 t) (ix2 p q)
    = passB (V c main_arg3) (V c main_v1) (V c main_v17) (V c main_v11) (V c main_v18) (((cfg3.win 5).blk t).view.emb (ix2 p q))
  refine (Pay.pay3 (iblk3 V c 0 t) (iblk3 V c 1 t) (iblk3 V c 2 t) (iblk3 V c 4 t) (iblk3 V c 3 t) p q).trans ?_
  unfold passB
  have h4 : ((cfg3.win 4).blk t).view.emb (ix2 p q) = ((cfg3.win 5).blk t).view.emb (ix2 p q) := by
    funext d; apply Fin.ext
    match d with
    | ⟨0, _⟩ => show win3_4.index t (0 : Fin 2) * 128 + 1 * p.val = win3_5.index t (0 : Fin 2) * 128 + 1 * p.val; omega
    | ⟨1, _⟩ => show win3_4.index t (1 : Fin 2) * 128 + 1 * q.val = win3_5.index t (1 : Fin 2) * 128 + 1 * q.val; omega
  refine add_congr_idx (V c main_v18) _ _ _ _ h4 (Finset.sum_congr rfl fun j _ => ?_)
  have h0 : (fun s : Fin 16384 => ((cfg3.win 0).blk t).view.emb (ix2 p s)) = fun s => ix2 ((((cfg3.win 5).blk t).view.emb (ix2 p q)) 0) s := by
    funext s d; apply Fin.ext
    match d with
    | ⟨0, _⟩ => show win3_0.index t (0 : Fin 2) * 128 + 1 * p.val = win3_5.index t (0 : Fin 2) * 128 + 1 * p.val; omega
    | ⟨1, _⟩ => show win3_0.index t (1 : Fin 2) * 16384 + 1 * s.val = s.val; omega
  have h1 : (fun s : Fin 16384 => ((cfg3.win 1).blk t).view.emb (ix2 s j)) = fun s => ix2 s j := by
    funext s d; apply Fin.ext
    match d with
    | ⟨0, _⟩ => show win3_1.index t (0 : Fin 2) * 16384 + 1 * s.val = s.val; omega
    | ⟨1, _⟩ => show win3_1.index t (1 : Fin 2) * 128 + 1 * j.val = j.val; omega
  have h2 : ((cfg3.win 2).blk t).view.emb (ix2 (0 : Fin 1) j) = ix2 (0 : Fin 1) j := by
    funext d; apply Fin.ext
    match d with
    | ⟨0, _⟩ => show win3_2.index t (0 : Fin 2) * 1 + 1 * 0 = 0; omega
    | ⟨1, _⟩ => show win3_2.index t (1 : Fin 2) * 128 + 1 * j.val = j.val; omega
  have h3 : ((cfg3.win 3).blk t).view.emb (ix2 j q) = ix2 j ((((cfg3.win 5).blk t).view.emb (ix2 p q)) 1) := by
    funext d; apply Fin.ext
    match d with
    | ⟨0, _⟩ => show win3_3.index t (0 : Fin 2) * 128 + 1 * j.val = j.val; omega
    | ⟨1, _⟩ => show win3_3.index t (1 : Fin 2) * 128 + 1 * q.val = win3_5.index t (1 : Fin 2) * 128 + 1 * q.val; omega
  exact layer_congr (V c main_arg3) (V c main_v1) (V c main_v17) (V c main_v11) _ _ _ _ _ _ _ _ h0 h1 h2 h3

/-- An index of z is in point t's block iff its coordinates are in the block's ranges. -/
theorem mem_blk3 (t : Fin cfg3.N) (i : S8192x128.Idx) :
    i ∈ ((cfg3.win 5).blk t).view.set ↔ ∀ a : Fin 2, win3_5.index t a * S128x128.size a ≤ (i a).val ∧ (i a).val < win3_5.index t a * S128x128.size a + S128x128.size a := by
  show i ∈ ((View.whole main_v19).slice (win3_5.rect t)).set ↔ _
  rw [View.set_slice_whole, Rect.mem_set_unit]
  exact Iff.rfl

/-- Every block row is some point's. -/
theorem onto3 : ∀ q0 : Fin 64, ∃ t : Fin cfg3.N, t.val = q0.val :=
  (by decide +kernel : ∀ q0 : Fin 64, ∃ t : Fin grid3.N, t.val = q0.val)

/-- The 64 blocks cover z. -/
theorem cover3 (i : S8192x128.Idx) : ∃ t : Fin cfg3.N, (cfg3.win 5).flush t = true ∧ i ∈ ((cfg3.win 5).blk t).view.set := by
  have hi0 : (i 0).val < 8192 := (i 0).isLt
  have hi1 : (i 1).val < 128 := (i 1).isLt
  obtain ⟨t, ht⟩ := onto3 ⟨(i 0).val / 128, by omega⟩
  have ht' : t.val = (i 0).val / 128 := ht
  obtain ⟨e0, e1, e2, e3, e4, e5, e6, e7, e8, e9, e10, e11⟩ := idx3 t
  refine ⟨t, flush3_5 t, ?_⟩
  rw [mem_blk3]
  intro a
  match a with
  | ⟨0, _⟩ => show win3_5.index t (0 : Fin 2) * 128 ≤ (i 0).val ∧ (i 0).val < win3_5.index t (0 : Fin 2) * 128 + 128; omega
  | ⟨1, _⟩ => show win3_5.index t (1 : Fin 2) * 128 ≤ (i 1).val ∧ (i 1).val < win3_5.index t (1 : Fin 2) * 128 + 128; omega

/-- After region 3, z is `passB` of what the region found at inc, v, the bias row, the padded lower weights and za. -/
theorem final3 (c : Dev nD) : (dat3 V c).arrAt 5 cfg3.N = passB (V c main_arg3) (V c main_v1) (V c main_v17) (V c main_v11) (V c main_v18) :=
  (dat3 V c).arrAt_eq_of_cover 5 _ (fun t _ => flushed3 V c t) cover3

end Cert.LineGcn.Glue

end
-- ==== Proof.Pay4.lean ====
/-
  The last region's body read at an entry: a row-wise log-softmax over the first 40 of 128 lanes.

  For a block of 256 rows the body forms the logits l (p, c) = Σ_t x0 (p, t) · x1 (t, c) + x2 (0, c) on all 128 lanes,
  replaces the lanes from 40 on by -∞ (a select on the lane index compared with 40), takes each row's largest masked
  logit M p and the logarithm of the row's sum of exp (masked logit - M p), and returns (l - M) less that logarithm on
  the first 40 lanes and 0 on the rest.  The file names each piece of the body (the logits block, the lane mask, the
  masked block, the column of row maxima, the column of logarithms), states that the body is their composition, and
  reads each piece at an index: the product as the sum over the contracted axis, the two lane reductions as the fold of
  max from -∞ and the sum from 0 over the 128 lanes, the column casts and broadcasts by their coordinates.
-/
import proofs.«167551_g84756884620005_cont_sun_c4_91_1_alg».proof.Proof.Gen.KernelIdeal.Skeleton
import proofs.«167551_g84756884620005_cont_sun_c4_91_1_alg».proof.Proof.Pay01
import Idealize.ShloMosaic.Lib.ValueIdx
import Idealize.ShloMosaic.Lib.ValueLayout
import Idealize.ShloMosaic.Lib.Pipeline.Value
import Idealize.ShloMosaic.PureOps.Ideal.Laws

noncomputable section

namespace Cert.LineGcn.Pay

open Cert.KernelIdeal Cert.KernelIdeal.Gen Idealize.ShloMosaic Idealize.ShloMosaic.ValueIdx
open scoped BigOperators

/-! ## Layout operations and the lane mask read at an index -/

/-- An `[a]` array cast to the column `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "the lane index, as a 32-bit word, is below 40 (signed)" is the `if` on the lane index. -/
theorem select_lane_lt {α : Type} (c : Fin 128) (A B : α) :
    Scalar.select (IntOp.cmpi .slt (BitVec.ofNat 32 c.val) 40#32) A B = if c.val < 40 then A else B := by
  unfold Scalar.select
  refine if_congr ((IntOp.cmpi_slt (x := BitVec.ofNat 32 c.val) (y := 40#32)).trans ?_) rfl rfl
  have hc := c.isLt
  have h1 : (BitVec.ofNat 32 c.val).toInt = (c.val : Int) := by
    rw [BitVec.toInt_eq_toNat_of_lt (by rw [BitVec.toNat_ofNat]; omega), BitVec.toNat_ofNat]
    omega
  have h2 : (40#32 : BitVec 32).toInt = 40 := by decide
  rw [h1, h2]
  omega

/-- The f32 word `0xFF800000` is `-∞`. -/
theorem ofBits_neg_inf_f32 : Ideal.ofBits .f32 0xFF800000#32 = ⊥ := by simp [Ideal.ofBits, Ideal.ieee]

/-- The index a lane reduction of a `[256, 128]` block reads at row `p` and lane `k` is `(p, k)`. -/
theorem lift_lane (p : Fin 256) (k : Fin 128) : reduces_S256x128_S256.lift (ix1 p) k = ix2 p k :=
  funext fun a => Fin.ext (by match a with | ⟨0, _⟩ => rfl | ⟨1, _⟩ => rfl)

/-! ## The last pass's payload, piece by piece -/

section PassC
variable (x0 : Vec Ideal S256x8192 .f32) (x1 : Vec Ideal S8192x128 .bf16) (x2 : Vec Ideal S1x128 .f32)

/-- The logit at row `p`, lane `c`: the row of the first block times the column of the second, plus the bias. -/
def lg (p : Fin 256) (c : Fin 128) : EReal := (∑ t : Fin 8192, x0 (ix2 p t) * x1 (ix2 t c)) + x2 (ix2 (0 : Fin 1) c)
/-- The logit on the first 40 lanes, `-∞` on the padding lanes. -/
def msk (p : Fin 256) (c : Fin 128) : EReal := if c.val < 40 then lg x0 x1 x2 p c else ⊥
/-- The row maximum of the masked logits. -/
def rmax (p : Fin 256) : EReal := (Finset.univ : Finset (Fin 128)).fold max ⊥ (msk x0 x1 x2 p)

/-- The logits block: the product plus the bias row broadcast over the rows. -/
def logitsBlk : FVec Ideal S256x128 .f32 :=
  addf (matmul (φ₁ := .bf16) (φ₂ := .bf16) dot_S256x8192_S8192x128_S256x128_1_0_0_1_n_n none (truncf .bf16 x0 bitsLt_bf16_f32)
      (shapeCast (α := Ideal .bf16) S8192x128 x1 shapeCasts_S8192x128_S8192x128) (constant (F := Ideal) S256x128 .f32 0x00000000#32))
    (broadcastTo S256x128 (shapeCast S1x128 x2 shapeCasts_S1x128_S1x128) broadcasts_S1x128_S256x128)

/-- The lane mask: the lane index below 40. -/
def laneMask : IVec S256x128 1 :=
  cmpi .slt (iota .tc S256x128 32 [1] iota_S256x128_d1_w32) (broadcast S256x128 40#32)

/-- The masked logits block. -/
def maskedBlk : FVec Ideal S256x128 .f32 :=
  select laneMask (logitsBlk x0 x1 x2) (broadcast S256x128 (Scalar.ofBits (F := Ideal) .f32 0xFF800000#32))

/-- The row maxima as a column. -/
def rowMaxCol : FVec Ideal S256x1 .f32 :=
  shapeCast S256x1
    (multiReduction (F := Ideal) .maximumf [1] S256 (maskedBlk x0 x1 x2) 0xFF800000#32 reduces_S256x128_S256 (.inl rfl) rfl)
    shapeCasts_S256_S256x1

/-- The logarithms of the rows' exponential sums as a column. -/
def lseCol : FVec Ideal S256x1 .f32 :=
  log (shapeCast S256x1
    (multiReduction (F := Ideal) .add [1] S256
      (exp (subf (maskedBlk x0 x1 x2) (broadcastTo S256x128 (rowMaxCol x0 x1 x2) broadcasts_S256x1_S256x128)))
      0x00000000#32 reduces_S256x128_S256 (.inl rfl) rfl)
    shapeCasts_S256_S256x1)

set_option maxRecDepth 65536 in
/-- The payload is the select, on the lane mask, between the shifted logits minus the column of logarithms and zero. -/
theorem k4_pay1_eq :
    k4_pay1 (F := Ideal) x0 x1 x2
      = select laneMask
          (subf (subf (logitsBlk x0 x1 x2) (broadcastTo S256x128 (rowMaxCol x0 x1 x2) broadcasts_S256x1_S256x128))
            (broadcastTo S256x128 (lseCol x0 x1 x2) broadcasts_S256x1_S256x128))
          (broadcast S256x128 (Scalar.ofBits (F := Ideal) .f32 0x00000000#32)) := rfl

/-- The logits block at (p, c) is the logit: the sum over the contracted axis plus the bias entry of the lane. -/
theorem logitsBlk_apply (p : Fin 256) (c : Fin 128) : logitsBlk x0 x1 x2 (ix2 p c) = lg x0 x1 x2 p c := by
  unfold logitsBlk lg
  rw [shapeCast_self, shapeCast_self]
  simp only [matmul, addf_apply]
  rw [broadcastTo_1b_ab_apply]
  have hm := matmul_plain_apply (φ₁ := .bf16) (φ₂ := .bf16) dot_S256x8192_S8192x128_S256x128_1_0_0_1_n_n rfl
    (truncf .bf16 x0 bitsLt_bf16_f32) x1 p c
  simp only [truncf_apply] at hm
  rw [hm]

/-- A select on the lane mask at (p, c) is the `if` on c < 40. -/
theorem select_laneMask {α : Type} (p : Fin 256) (c : Fin 128) (A B : α) :
    Scalar.select (laneMask (ix2 p c)) A B = if c.val < 40 then A else B := by
  have h : laneMask (ix2 p c) = IntOp.cmpi .slt (BitVec.ofNat 32 c.val) 40#32 := by
    show IntOp.cmpi .slt (iota .tc S256x128 32 [1] iota_S256x128_d1_w32 (ix2 p c)) 40#32 = _
    rw [iota_single_apply]
  rw [h, select_lane_lt]

/-- The masked block at (p, c): the logit below lane 40, -∞ from lane 40 on. -/
theorem maskedBlk_apply (p : Fin 256) (c : Fin 128) : maskedBlk x0 x1 x2 (ix2 p c) = msk x0 x1 x2 p c := by
  unfold maskedBlk msk
  rw [select_apply, select_laneMask, logitsBlk_apply, broadcast_apply]
  show (if c.val < 40 then _ else Ideal.ofBits .f32 0xFF800000#32) = _
  rw [ofBits_neg_inf_f32]

/-- The column of row maxima at row p: the fold of max from -∞ over the row's 128 masked logits. -/
theorem rowMaxCol_apply (p : Fin 256) (u : Fin 1) : rowMaxCol x0 x1 x2 (ix2 p u) = rmax x0 x1 x2 p := by
  unfold rowMaxCol rmax
  rw [shapeCast_a_a1_apply]
  refine (Ideal.multiReduction_maximumf_single (maskedBlk x0 x1 x2) 0xFF800000#32 reduces_S256x128_S256 (.inl rfl) rfl
    (ix1 p)).trans ?_
  show (Finset.univ : Finset (Fin 128)).fold max (Ideal.ofBits .f32 0xFF800000#32) _ = _
  rw [ofBits_neg_inf_f32]
  have hf : (maskedBlk x0 x1 x2 ∘ reduces_S256x128_S256.lift (ix1 p) : Fin 128 → EReal) = msk x0 x1 x2 p :=
    funext fun k => by
      show maskedBlk x0 x1 x2 (reduces_S256x128_S256.lift (ix1 p) k) = _
      rw [lift_lane, maskedBlk_apply]
  exact congrArg (fun f => (Finset.univ : Finset (Fin 128)).fold max ⊥ f) hf

/-- The column of logarithms at row p: the logarithm of the sum, over the 128 lanes, of exp (masked logit - row maximum). -/
theorem lseCol_apply (p : Fin 256) (u : Fin 1) :
    lseCol x0 x1 x2 (ix2 p u) = Ideal.log (∑ c : Fin 128, Ideal.exp (msk x0 x1 x2 p c - rmax x0 x1 x2 p)) := by
  unfold lseCol
  show Ideal.log (shapeCast S256x1 _ shapeCasts_S256_S256x1 (ix2 p u)) = _
  rw [shapeCast_a_a1_apply]
  refine congrArg Ideal.log ?_
  refine (Ideal.multiReduction_add_single
    (exp (subf (maskedBlk x0 x1 x2) (broadcastTo S256x128 (rowMaxCol x0 x1 x2) broadcasts_S256x1_S256x128)))
    0x00000000#32 reduces_S256x128_S256 (.inl rfl) rfl (ix1 p)).trans ?_
  refine Finset.sum_congr rfl fun (k : Fin 128) _ => ?_
  rw [lift_lane p k]
  show Ideal.exp (subf (maskedBlk x0 x1 x2) _ (ix2 p k)) = _
  rw [subf_apply, maskedBlk_apply, broadcastTo_a1_ab_apply, rowMaxCol_apply]

/-- The last pass's payload at row `p`, lane `q`: on the first 40 lanes the logit minus the row maximum minus the
    logarithm of the row's sum of exponentials of the masked logits minus the row maximum; zero on the padding lanes. -/
theorem pay4 (p : Fin 256) (q : Fin 128) :
    k4_pay1 (F := Ideal) x0 x1 x2 (ix2 p q)
      = if q.val < 40 then
          (lg x0 x1 x2 p q - rmax x0 x1 x2 p)
            - Ideal.log (∑ c : Fin 128, Ideal.exp (msk x0 x1 x2 p c - rmax x0 x1 x2 p))
        else 0 := by
  rw [k4_pay1_eq, select_apply, select_laneMask, subf_apply, subf_apply, logitsBlk_apply,
    broadcastTo_a1_ab_apply, broadcastTo_a1_ab_apply, rowMaxCol_apply, lseCol_apply, broadcast_apply]
  show (if q.val < 40 then _ else Ideal.ofBits .f32 0x00000000#32) = _
  rw [Ideal.ofBits_zero_f32]

end PassC

end Cert.LineGcn.Pay

end
-- ==== Proof.PassC.lean ====
/-
  The last pass as a whole-array function: logits, a row-wise log-softmax over the first 40 of 128 lanes.

  For a row r: the logits l c = Σ_t A (r, t) · Z (t, c) + B c over all 128 lanes; the lanes from 40 on are masked to
  ⊥ before the row maximum and the sum of exponentials are taken; the result is (l c - M) - log Σ exp (masked - M)
  on the first 40 lanes and 0 on the rest.
-/
import proofs.«167551_g84756884620005_cont_sun_c4_91_1_alg».proof.Proof.Gen.KernelIdeal
import Idealize.ShloMosaic.PureOps.Ideal
import Idealize.ShloMosaic.Lib.ValueIdx

noncomputable section

namespace Cert.LineGcn.Glue

open Cert.KernelIdeal Idealize.ShloMosaic Idealize.ShloMosaic.ValueIdx
open scoped BigOperators

/-- The logit of row `r` at lane `c`. -/
def lgW (A : S8192x8192.Idx → Elt Ideal .f32) (Z : S8192x128.Idx → Elt Ideal .bf16) (B : S1x128.Idx → Elt Ideal .f32)
    (r : Fin 8192) (c : Fin 128) : EReal :=
  (∑ t : Fin 8192, A (ix2 r t) * Z (ix2 t c)) + B (ix2 (0 : Fin 1) c)

/-- The logit masked to `⊥` from lane 40 on. -/
def mskW (A : S8192x8192.Idx → Elt Ideal .f32) (Z : S8192x128.Idx → Elt Ideal .bf16) (B : S1x128.Idx → Elt Ideal .f32)
    (r : Fin 8192) (c : Fin 128) : EReal :=
  if c.val < 40 then lgW A Z B r c else ⊥

/-- The row's largest masked logit. -/
def rmaxW (A : S8192x8192.Idx → Elt Ideal .f32) (Z : S8192x128.Idx → Elt Ideal .bf16) (B : S1x128.Idx → Elt Ideal .f32)
    (r : Fin 8192) : EReal :=
  (Finset.univ : Finset (Fin 128)).fold max ⊥ (mskW A Z B r)

/-- The padded result: the log-softmax on the first 40 lanes, 0 on the rest. -/
def passC (A : S8192x8192.Idx → Elt Ideal .f32) (Z : S8192x128.Idx → Elt Ideal .bf16) (B : S1x128.Idx → Elt Ideal .f32) :
    S8192x128.Idx → Elt Ideal .f32 :=
  fun i => if (i 1).val < 40 then
      (lgW A Z B (i 0) (i 1) - rmaxW A Z B (i 0)) - Ideal.log (∑ c : Fin 128, Ideal.exp (mskW A Z B (i 0) c - rmaxW A Z B (i 0)))
    else 0

end Cert.LineGcn.Glue

end
-- ==== Proof.Reg4.lean ====
/-
  Region 4: the logits and their row-wise log-softmax, in 32 blocks of 256 rows.

  Grid point t loads rows 256·t … 256·t + 255 of adj, all of z and the padded bias row, and writes the same rows of
  the padded result: on the first 40 lanes the log-softmax of the row's logits l c = Σ_k adj (r, k) · z (k, c) + b c,
  the remaining lanes masked out of the maximum and of the sum, and 0 there.  The 32 blocks tile the padded result.
-/
import proofs.«167551_g84756884620005_cont_sun_c4_91_1_alg».proof.Proof.Gen.KernelIdeal.Frame
import proofs.«167551_g84756884620005_cont_sun_c4_91_1_alg».proof.Proof.Pay4
import proofs.«167551_g84756884620005_cont_sun_c4_91_1_alg».proof.Proof.PassC
import proofs.«167551_g84756884620005_cont_sun_c4_91_1_alg».proof.Proof.Reg0
import Idealize.ShloMosaic.Lib.Pipeline.Value

set_option maxRecDepth 16384

noncomputable section

namespace Cert.LineGcn.Glue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-- A block's logits are the whole arrays' at the block's rows: a sum of products plus a bias, re-read at equal entries. -/
theorem pay4_whole (A : S8192x8192.Idx → Elt Ideal .f32) (Z : S8192x128.Idx → Elt Ideal .bf16) (B : S1x128.Idx → Elt Ideal .f32)
    (b0 : Vec Ideal S256x8192 .f32) (b1 : Vec Ideal S8192x128 .bf16) (b2 : Vec Ideal S1x128 .f32) (p : Fin 256) (R : Fin 8192)
    (h0 : ∀ s : Fin 8192, b0 (ix2 p s) = A (ix2 R s)) (h1 : ∀ (s : Fin 8192) (c : Fin 128), b1 (ix2 s c) = Z (ix2 s c))
    (h2 : ∀ c : Fin 128, b2 (ix2 (0 : Fin 1) c) = B (ix2 (0 : Fin 1) c)) (q : Fin 128) :
    (if q.val < 40 then (Pay.lg b0 b1 b2 p q - Pay.rmax b0 b1 b2 p)
        - Ideal.log (∑ c : Fin 128, Ideal.exp (Pay.msk b0 b1 b2 p c - Pay.rmax b0 b1 b2 p)) else 0)
      = passC A Z B (ix2 R q) := by
  have hlg : ∀ c : Fin 128, Pay.lg b0 b1 b2 p c = lgW A Z B R c := fun c => by
    unfold Pay.lg lgW
    rw [h2 c]
    exact congrArg (· + B (ix2 (0 : Fin 1) c)) (Finset.sum_congr rfl fun s _ => by rw [h0 s, h1 s c])
  have hmsk : ∀ c : Fin 128, Pay.msk b0 b1 b2 p c = mskW A Z B R c := fun c => by
    unfold Pay.msk mskW
    rw [hlg c]
  have hrmax : Pay.rmax b0 b1 b2 p = rmaxW A Z B R := by
    unfold Pay.rmax rmaxW
    exact congrArg (fun f => Finset.fold max ⊥ f Finset.univ) (funext hmsk)
  have hC : passC A Z B (ix2 R q) = if q.val < 40 then (lgW A Z B R q - rmaxW A Z B R)
      - Ideal.log (∑ c : Fin 128, Ideal.exp (mskW A Z B R c - rmaxW A Z B R)) else 0 := rfl
  rw [hC, hlg q, hrmax]
  simp only [hmsk]

/-- The printed index maps over the grid: the row-block windows sit at block (t, 0), the whole-array windows at (0, 0). -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of `passC` of the arrays the region finds. -/
theorem flushed4 (c : Dev nD) (t : Fin cfg4.N) :
    (dat4 V c).flushed 3 t = ((cfg4.win 3).blk t).view.read (Elt Ideal) (passC (V c main_arg1) (V c main_v19) (V c main_v15)) := by
  show (cfg4.win 3).cut (grid4.coords t) ((dat4 V c).after 3 t) = _
  rw [after4_3]
  unfold out4_3
  rw [View.canon_unit_zero zero2]
  simp only [View.ld_unit_zero (S := S256x8192) zero2, View.ld_unit_zero (S := S8192x128) zero2,
    View.ld_unit_zero (S := S1x128) zero2]
  obtain ⟨e0, e1, e2, e3, e4, e5, e6, e7⟩ := idx4 t
  have ht : t.val < 32 := Nat.lt_of_lt_of_eq t.isLt N_4
  funext j
  obtain ⟨p, q, rfl⟩ : ∃ (p : Fin 256) (q : Fin 128), j = ix2 p q := ⟨j 0, j 1, eq_ix2 j⟩
  show k4_pay1 (iblk4 V c 0 t) (iblk4 V c 1 t) (iblk4 V c 2 t) (ix2 p q)
    = passC (V c main_arg1) (V c main_v19) (V c main_v15) (((cfg4.win 3).blk t).view.emb (ix2 p q))
  refine (Pay.pay4 (iblk4 V c 0 t) (iblk4 V c 1 t) (iblk4 V c 2 t) p q).trans ?_
  have hp : p.val < 256 := p.isLt
  have hemb : ((cfg4.win 3).blk t).view.emb (ix2 p q) = ix2 (⟨t.val * 256 + p.val, by omega⟩ : Fin 8192) q := by
    funext d; apply Fin.ext
    match d with
    | ⟨0, _⟩ => show win4_3.index t (0 : Fin 2) * 256 + 1 * p.val = t.val * 256 + p.val; omega
    | ⟨1, _⟩ => show win4_3.index t (1 : Fin 2) * 128 + 1 * q.val = q.val; omega
  rw [hemb]
  have h0 : ∀ s : Fin 8192, ((cfg4.win 0).blk t).view.emb (ix2 p s) = ix2 (⟨t.val * 256 + p.val, by omega⟩ : Fin 8192) s := fun s => by
    funext d; apply Fin.ext
    match d with
    | ⟨0, _⟩ => show win4_0.index t (0 : Fin 2) * 256 + 1 * p.val = t.val * 256 + p.val; omega
    | ⟨1, _⟩ => show win4_0.index t (1 : Fin 2) * 8192 + 1 * s.val = s.val; omega
  have h1 : ∀ (s : Fin 8192) (k : Fin 128), ((cfg4.win 1).blk t).view.emb (ix2 s k) = ix2 s k := fun s k => by
    funext d; apply Fin.ext
    match d with
    | ⟨0, _⟩ => show win4_1.index t (0 : Fin 2) * 8192 + 1 * s.val = s.val; omega
    | ⟨1, _⟩ => show win4_1.index t (1 : Fin 2) * 128 + 1 * k.val = k.val; omega
  have h2 : ∀ k : Fin 128, ((cfg4.win 2).blk t).view.emb (ix2 (0 : Fin 1) k) = ix2 (0 : Fin 1) k := fun k => by
    funext d; apply Fin.ext
    match d with
    | ⟨0, _⟩ => show win4_2.index t (0 : Fin 2) * 1 + 1 * 0 = 0; omega
    | ⟨1, _⟩ => show win4_2.index t (1 : Fin 2) * 128 + 1 * k.val = k.val; omega
  exact pay4_whole (V c main_arg1) (V c main_v19) (V c main_v15) (iblk4 V c 0 t) (iblk4 V c 1 t) (iblk4 V c 2 t) p _
    (fun s => congrArg (V c main_arg1) (h0 s)) (fun s k => congrArg (V c main_v19) (h1 s k)) (fun k => congrArg (V c main_v15) (h2 k)) q

/-- An index of the padded result is in point t's block iff its coordinates are in the block's ranges. -/
theorem mem_blk4 (t : Fin cfg4.N) (i : S8192x128.Idx) :
    i ∈ ((cfg4.win 3).blk t).view.set ↔ ∀ a : Fin 2, win4_3.index t a * S256x128.size a ≤ (i a).val ∧ (i a).val < win4_3.index t a * S256x128.size a + S256x128.size a := by
  show i ∈ ((View.whole main_v20).slice (win4_3.rect t)).set ↔ _
  rw [View.set_slice_whole, Rect.mem_set_unit]
  exact Iff.rfl

/-- Every block row is some point's. -/
theorem onto4 : ∀ q0 : Fin 32, ∃ t : Fin cfg4.N, t.val = q0.val :=
  (by decide +kernel : ∀ q0 : Fin 32, ∃ t : Fin grid4.N, t.val = q0.val)

/-- The 32 blocks cover the padded result. -/
theorem cover4 (i : S8192x128.Idx) : ∃ t : Fin cfg4.N, (cfg4.win 3).flush t = true ∧ i ∈ ((cfg4.win 3).blk t).view.set := by
  have hi0 : (i 0).val < 8192 := (i 0).isLt
  have hi1 : (i 1).val < 128 := (i 1).isLt
  obtain ⟨t, ht⟩ := onto4 ⟨(i 0).val / 256, by omega⟩
  have ht' : t.val = (i 0).val / 256 := ht
  obtain ⟨e0, e1, e2, e3, e4, e5, e6, e7⟩ := idx4 t
  refine ⟨t, flush4_3 t, ?_⟩
  rw [mem_blk4]
  intro a
  match a with
  | ⟨0, _⟩ => show win4_3.index t (0 : Fin 2) * 256 ≤ (i 0).val ∧ (i 0).val < win4_3.index t (0 : Fin 2) * 256 + 256; omega
  | ⟨1, _⟩ => show win4_3.index t (1 : Fin 2) * 128 ≤ (i 1).val ∧ (i 1).val < win4_3.index t (1 : Fin 2) * 128 + 128; omega

/-- After region 4, the padded result is `passC` of what the region found at adj, z and the padded bias row. -/
theorem final4 (c : Dev nD) : (dat4 V c).arrAt 3 cfg4.N = passC (V c main_arg1) (V c main_v19) (V c main_v15) :=
  (dat4 V c).arrAt_eq_of_cover 3 _ (fun t _ => flushed4 V c t) cover4

end Cert.LineGcn.Glue

end
-- ==== Proof.Chain.lean ====
/-
  The arrays each region of the idealized kernel finds, and what it leaves, as functions of the launch memory.

  The buffer contents at the boundaries of @main are a fold (the generated `W0 … W7`).  Walking the fold back:
  an argument is never written, so every region finds it as launched; the two projections u and v are what
  regions 0 and 1 left; the padded weights, the padded bias and the two bias rows are what the host operations
  between regions 1 and 2 computed from the arguments; za, z and the padded result are what regions 2, 3 and 4 left.
-/
import proofs.«167551_g84756884620005_cont_sun_c4_91_1_alg».proof.Proof.KernelRun
import proofs.«167551_g84756884620005_cont_sun_c4_91_1_alg».proof.Proof.Reg1
import proofs.«167551_g84756884620005_cont_sun_c4_91_1_alg».proof.Proof.Reg2
import proofs.«167551_g84756884620005_cont_sun_c4_91_1_alg».proof.Proof.Reg3
import proofs.«167551_g84756884620005_cont_sun_c4_91_1_alg».proof.Proof.Reg4
import Idealize.ShloMosaic.Lib.ValueLayout
import Idealize.ShloMosaic.Lib.StableHlo.Run

set_option maxRecDepth 16384

noncomputable section

namespace Cert.LineGcn.Chain

open Cert.KernelIdeal Cert.KernelIdeal.Gen Cert.LineGcn.Glue
open Idealize.ShloMosaic Idealize.ShloMosaic.TcCoe Idealize.ShloMosaic.ValueIdx
open Idealize.SL Idealize.SL.Sem
open scoped BigOperators

variable (m : (ℓ : Loc nD τ sig) → Buf (Elt Ideal) ℓ) (ρ : Dev nD → PrngReg) (c : Dev nD)

/-! ## The host operations between regions 1 and 2 write none of these buffers -/

theorem keep3_arg1 : W3 m ρ c (Proc.devRef .tc main_arg1) = W2 m ρ c (Proc.devRef .tc main_arg1) :=
  StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep3_arg3 : W3 m ρ c (Proc.devRef .tc main_arg3) = W2 m ρ c (Proc.devRef .tc main_arg3) :=
  StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep3_v0 : W3 m ρ c (Proc.devRef .tc main_v0) = W2 m ρ c (Proc.devRef .tc main_v0) :=
  StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep3_v1 : W3 m ρ c (Proc.devRef .tc main_v1) = W2 m ρ c (Proc.devRef .tc main_v1) :=
  StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## The arguments, as each region finds them -/

theorem V1_arg2 : V1 m ρ c main_arg2 = m ((c : Thread nD τ).loc main_arg2) := W1_of_ne m ρ c main_arg2 (by decide)
theorem V1_arg6 : V1 m ρ c main_arg6 = m ((c : Thread nD τ).loc main_arg6) := W1_of_ne m ρ c main_arg6 (by decide)
theorem V3_arg1 : V3 m ρ c main_arg1 = m ((c : Thread nD τ).loc main_arg1) :=
  (keep3_arg1 m ρ c).trans ((W2_of_ne m ρ c main_arg1 (by decide)).trans (W1_of_ne m ρ c main_arg1 (by decide)))
theorem V4_arg3 : V4 m ρ c main_arg3 = m ((c : Thread nD τ).loc main_arg3) :=
  (W4_of_ne m ρ c main_arg3 (by decide)).trans ((keep3_arg3 m ρ c).trans ((W2_of_ne m ρ c main_arg3 (by decide)).trans (W1_of_ne m ρ c main_arg3 (by decide))))
theorem V5_arg1 : V5 m ρ c main_arg1 = m ((c : Thread nD τ).loc main_arg1) :=
  (W5_of_ne m ρ c main_arg1 (by decide)).trans
    (((W4_arr m ρ c 0).trans (((dat2 (V3 m ρ) c).arrAt_in 0 rfl _).trans (A_eq2 (V3 m ρ) c 0))).trans (V3_arg1 m ρ c))

/-! ## The two projections -/

/-- After region 0, u is x · W1 of the launch memory. -/
theorem u_eq : W1 m ρ c (Proc.devRef .tc main_v0) = prodU (m ((c : Thread nD τ).loc main_arg0)) (m ((c : Thread nD τ).loc main_arg4)) :=
  (W1_arr m ρ c 2).trans (final0 (V0 m ρ) c)

/-- After region 1, v is y · We of the launch memory. -/
theorem v_eq : W2 m ρ c (Proc.devRef .tc main_v1) = prodV (m ((c : Thread nD τ).loc main_arg2)) (m ((c : Thread nD τ).loc main_arg6)) := by
  refine (W2_arr m ρ c 2).trans ((final1 (V1 m ρ) c).trans ?_)
  rw [V1_arg2, V1_arg6]

theorem V3_v0 : V3 m ρ c main_v0 = prodU (m ((c : Thread nD τ).loc main_arg0)) (m ((c : Thread nD τ).loc main_arg4)) :=
  (keep3_v0 m ρ c).trans ((W2_of_ne m ρ c main_v0 (by decide)).trans (u_eq m ρ c))
theorem V4_v1 : V4 m ρ c main_v1 = prodV (m ((c : Thread nD τ).loc main_arg2)) (m ((c : Thread nD τ).loc main_arg6)) :=
  (W4_of_ne m ρ c main_v1 (by decide)).trans ((keep3_v1 m ρ c).trans (v_eq m ρ c))

/-! ## The host-computed arrays, as regions 3 and 4 find them -/

theorem V4_v17 : V4 m ρ c main_v17 = V3 m ρ c main_v17 := W4_of_ne m ρ c main_v17 (by decide)
theorem V4_v11 : V4 m ρ c main_v11 = V3 m ρ c main_v11 := W4_of_ne m ρ c main_v11 (by decide)
theorem V5_v15 : V5 m ρ c main_v15 = V3 m ρ c main_v15 :=
  (W5_of_ne m ρ c main_v15 (by decide)).trans (W4_of_ne m ρ c main_v15 (by decide))

/-! ## What regions 2, 3 and 4 leave -/

/-- After region 2, za. -/
theorem za_eq : W4 m ρ c (Proc.devRef .tc main_v18)
    = passA (m ((c : Thread nD τ).loc main_arg1)) (prodU (m ((c : Thread nD τ).loc main_arg0)) (m ((c : Thread nD τ).loc main_arg4)))
        (V3 m ρ c main_v16) (V3 m ρ c main_v6) := by
  refine (W4_arr m ρ c 4).trans ((final2 (V3 m ρ) c).trans ?_)
  rw [V3_arg1, V3_v0]

/-- After region 3, z. -/
theorem z_eq : W5 m ρ c (Proc.devRef .tc main_v19)
    = passB (m ((c : Thread nD τ).loc main_arg3)) (prodV (m ((c : Thread nD τ).loc main_arg2)) (m ((c : Thread nD τ).loc main_arg6)))
        (V3 m ρ c main_v17) (V3 m ρ c main_v11)
        (passA (m ((c : Thread nD τ).loc main_arg1)) (prodU (m ((c : Thread nD τ).loc main_arg0)) (m ((c : Thread nD τ).loc main_arg4)))
          (V3 m ρ c main_v16) (V3 m ρ c main_v6)) := by
  refine (W5_arr m ρ c 5).trans ((final3 (V4 m ρ) c).trans ?_)
  rw [V4_arg3, V4_v1, V4_v17, V4_v11]
  exact congrArg _ (za_eq m ρ c)

/-- After region 4, the padded result. -/
theorem o_eq : W6 m ρ c (Proc.devRef .tc main_v20)
    = passC (m ((c : Thread nD τ).loc main_arg1))
        (passB (m ((c : Thread nD τ).loc main_arg3)) (prodV (m ((c : Thread nD τ).loc main_arg2)) (m ((c : Thread nD τ).loc main_arg6)))
          (V3 m ρ c main_v17) (V3 m ρ c main_v11)
          (passA (m ((c : Thread nD τ).loc main_arg1)) (prodU (m ((c : Thread nD τ).loc main_arg0)) (m ((c : Thread nD τ).loc main_arg4)))
            (V3 m ρ c main_v16) (V3 m ρ c main_v6)))
        (V3 m ρ c main_v15) := by
  refine (W6_arr m ρ c 3).trans ((final4 (V5 m ρ) c).trans ?_)
  rw [V5_arg1, V5_v15]
  exact congrArg (fun Z => passC _ Z _) (z_eq m ρ c)

/-! ## @main's result: the first 40 lanes of the padded result -/

/-- The last host operation slices the padded result to its first 40 lanes. -/
theorem v21_eq : (W7 m ρ c (Proc.devRef .tc main_v21) : S8192x40.Idx → EReal)
    = extractStridedSlice S8192x40 ![0, 0] (W6 m ρ c (Proc.devRef .tc main_v20)) slices_S8192x128_S8192x40_0_0 := by
  show StableHlo.after hostOps5 (W6 m ρ c) (Proc.devRef .tc main_v21) = _
  after_results

/-- The result at (r, k) is the padded result at (r, k). -/
theorem v21_apply (r : Fin 8192) (k : Fin 40) :
    (W7 m ρ c (Proc.devRef .tc main_v21) : S8192x40.Idx → EReal) (ix2 r k)
      = W6 m ρ c (Proc.devRef .tc main_v20) (ix2 r (⟨k.val, by omega⟩ : Fin 128)) := by
  rw [v21_eq]
  exact slice2_axis1_apply 0 _ _ r k ⟨k.val, by omega⟩ (Nat.zero_add _).symm

end Cert.LineGcn.Chain

end
-- ==== Proof.LibScatterSet.lean ====
/-
  A host scatter whose body returns the update (an array `.at[…].set(…)`), read at one index.

  The scatter is a left fold over the update's indices in row-major order: each update index whose result index lies
  inside the operand overwrites that element.  Read at a fixed operand index `i`: if every update index landing on `i`
  carries the value `c`, and either some update index lands on `i` or the operand already holds `c` there, the
  result holds `c` at `i`.  Nothing here is specific to one program.
-/
import Idealize.ShloMosaic.Lib.ValueIdx

noncomputable section

namespace Cert.LibScatterSet

open Idealize.ShloMosaic

/-- A left fold of steps, each of which either overwrites element `i0` by `v n` (when `g n = some i0`) or does
    nothing (when `g n = none`), read at `i`: when all the steps landing on `i` carry `c` (or none lands and the
    start holds `c`) the value is `c`. -/
theorem foldl_set_apply {κ ι α : Type} [DecidableEq ι] (g : κ → Option ι) (v : κ → α) (i : ι) (c : α)
    (step : (ι → α) → κ → (ι → α))
    (hsome : ∀ r n i0, g n = some i0 → step r n = fun i' => if i' = i0 then v n else r i')
    (hnone : ∀ r n, g n = none → step r n = r) :
    ∀ (L : List κ) (x : ι → α), (∀ n ∈ L, g n = some i → v n = c) → ((∃ n ∈ L, g n = some i) ∨ x i = c) →
      L.foldl step x i = c
  | [], x, _, h => by
      rcases h with ⟨n, hn, _⟩ | h
      · cases hn
      · exact h
  | a :: L, x, hv, h => by
      rw [List.foldl_cons]
      refine foldl_set_apply g v i c step hsome hnone L _ (fun n hn => hv n (List.mem_cons_of_mem _ hn)) ?_
      by_cases hL : ∃ n ∈ L, g n = some i
      · exact Or.inl hL
      · right
        have hx : g a = some i ∨ x i = c := by
          rcases h with ⟨n, hn, hgn⟩ | h
          · rcases List.mem_cons.mp hn with rfl | hn'
            · exact Or.inl hgn
            · exact absurd ⟨n, hn', hgn⟩ hL
          · exact Or.inr h
        cases hga : g a with
        | none =>
          rw [hnone x a hga]
          rcases hx with hx | hx
          · rw [hga] at hx; cases hx
          · exact hx
        | some i0 =>
          rw [hsome x a i0 hga]
          show (if i = i0 then v a else x i) = c
          by_cases e : i = i0
          · rw [if_pos e]; exact hv a (List.mem_cons_self ..) (e ▸ hga)
          · rw [if_neg e]
            rcases hx with hx | hx
            · rw [hga] at hx; exact absurd (Option.some.inj hx).symm e
            · exact hx

/-- The scatter with the update-returning body at index `i`: `c`, when every update index that lands on `i` carries
    `c` and either one does land there or the operand holds `c` at `i`. -/
theorem scatter_set_apply {s si u : Shape} {w : Nat} {α : Type} (d : ScatterDims s si u) (x : s.Idx → α)
    (idx : IVec si w) (upd : u.Idx → α) (i : s.Idx) (c : α)
    (hv : ∀ j : u.Idx, d.resultIdx? j idx = some i → upd j = c)
    (h : (∃ j : u.Idx, d.resultIdx? j idx = some i) ∨ x i = c) :
    Host.scatter d (fun _ b => b) x idx upd i = c := by
  unfold Host.scatter
  refine foldl_set_apply (fun n => d.resultIdx? (u.rowMajor.symm n) idx) (fun n => upd (u.rowMajor.symm n)) i c _
    (fun r n i0 hg => by simp only [hg]) (fun r n hg => by simp only [hg]) _ x (fun n _ => hv _) ?_
  rcases h with ⟨j, hj⟩ | h
  · exact Or.inl ⟨u.rowMajor j, List.mem_finRange _, by rw [Equiv.symm_apply_apply]; exact hj⟩
  · exact Or.inr h

end Cert.LibScatterSet

end
-- ==== Proof.HostScatter.lean ====
/-
  The host scatters that pad the class axis before the kernel's regions.

  An array with 40 columns is written over the first 40 columns of an array with 128 columns, the window's start on
  the column axis being the constant 0 and the update's two axes being the window's.  The scatter is a left fold over
  the update's indices, each overwriting the operand's element it lands at.  With the start 0 an update index
  (r, c) lands at (r, c) itself, so the result at (r, q) is the update's entry (r, q) when q < 40 (exactly one update
  index lands there) and the operand's entry otherwise (none does).
-/
import proofs.«167551_g84756884620005_cont_sun_c4_91_1_alg».proof.Proof.Gen.KernelIdeal
import proofs.«167551_g84756884620005_cont_sun_c4_91_1_alg».proof.Proof.LibScatterSet
import Idealize.ShloMosaic.Lib.Pipeline.Value
import Idealize.ShloMosaic.Lib.ValueIdx

noncomputable section

namespace Cert.LineGcn.Host

open Cert.KernelIdeal Cert.KernelIdeal.Gen
open Idealize.ShloMosaic Idealize.ShloMosaic.ValueIdx

/-! ## A scatter whose indices are all zero -/

section General
variable {s si u : Shape} {w : Nat} (d : ScatterDims s si u) (idx : IVec si w)

/-- With every scatter index zero, every update's window starts at 0 on every operand axis. -/
theorem start_zero (hidx : ∀ t, (idx t).toInt = 0) (j : u.Idx) (a : Fin s.rank) : d.start j idx a = 0 := by
  unfold ScatterDims.start
  split
  · exact hidx _
  · rfl

/-- An update index whose window starts at 0 lands at the operand index that has its window coordinates. -/
theorem resultIdx_of_window (j : u.Idx) (hs : ∀ a, d.start j idx a = 0) (i : s.Idx)
    (hw : ∀ a, d.window j a = (i a).val) : d.resultIdx? j idx = some i := by
  have hin : ∀ a, 0 ≤ d.start j idx a + d.window j a ∧ d.start j idx a + d.window j a < s.size a := fun a => by
    rw [hs a, zero_add, hw a]
    exact ⟨Int.natCast_nonneg _, by exact_mod_cast (i a).isLt⟩
  unfold ScatterDims.resultIdx?
  rw [dif_pos hin]
  refine congrArg some (funext fun a => Fin.ext ?_)
  show (d.start j idx a + d.window j a).toNat = (i a).val
  rw [hs a, zero_add, hw a, Int.toNat_natCast]

/-- Conversely, the operand index an update index lands at has that update index's window coordinates. -/
theorem window_of_resultIdx (j : u.Idx) (hs : ∀ a, d.start j idx a = 0) (i : s.Idx)
    (h : d.resultIdx? j idx = some i) (a : Fin s.rank) : (i a).val = d.window j a := by
  unfold ScatterDims.resultIdx? at h
  split at h
  · rw [← Option.some.inj h]
    show (d.start j idx a + d.window j a).toNat = d.window j a
    rw [hs a, zero_add, Int.toNat_natCast]
  · cases h

end General

/-- An array with k columns written over the first columns of one with m, at start 0 (the update's window
    coordinates being its own two coordinates): entry (r, q) is the update's when q < k and the operand's otherwise. -/
theorem pad_general {n m k : Nat} {si : Shape} {w : Nat} {α : Type} (d : ScatterDims ⟨2, ![n, m]⟩ si ⟨2, ![n, k]⟩)
    (idx : IVec si w) (hidx : ∀ t, (idx t).toInt = 0)
    (hwin : ∀ j : (⟨2, ![n, k]⟩ : Shape).Idx, d.window j 0 = (j 0).val ∧ d.window j 1 = (j 1).val)
    (x : (⟨2, ![n, m]⟩ : Shape).Idx → α) (v : (⟨2, ![n, k]⟩ : Shape).Idx → α) (r : Fin n) (q : Fin m) :
    Host.scatter d (fun _ b => b) x idx v (ix2 r q) = if h : q.val < k then v (ix2 r ⟨q.val, h⟩) else x (ix2 r q) := by
  have hs : ∀ j a, d.start j idx a = 0 := fun j a => start_zero d idx hidx j a
  refine Cert.LibScatterSet.scatter_set_apply d x idx v (ix2 r q) _ (fun j hj => ?_) ?_
  · have h0 : r.val = (j 0).val := (window_of_resultIdx d idx j (hs j) _ hj 0).trans (hwin j).1
    have h1 : q.val = (j 1).val := (window_of_resultIdx d idx j (hs j) _ hj 1).trans (hwin j).2
    have hq : q.val < k := by have := idx2_lt1 j; omega
    rw [dif_pos hq]
    exact congrArg v (funext fun a => Fin.ext (by match a with | ⟨0, _⟩ => exact h0.symm | ⟨1, _⟩ => exact h1.symm))
  · by_cases hq : q.val < k
    · refine Or.inl ⟨ix2 r ⟨q.val, hq⟩, resultIdx_of_window d idx _ (hs _) _ fun a => ?_⟩
      match a with
      | ⟨0, _⟩ => exact (hwin _).1
      | ⟨1, _⟩ => exact (hwin _).2
    · exact Or.inr (by rw [dif_neg hq])

/-! ## The kernel's three paddings -/

/-- The start index the three scatters share: the constant 0. -/
theorem start_index_zero (t : S1.Idx) :
    ((broadcastInDim S1 ![] bcast_S_S1 (constantI S_ 32 0#32) : IVec S1 32) t).toInt = 0 := by
  rw [broadcastInDim_apply _ bcast_S_S1 (constantI S_ 32 0#32) t (fun a => a.elim0) (fun a => a.elim0)]
  rfl

/-- A [128, 40] array written over the first 40 columns of a [128, 128] array. -/
theorem pad_cols (x : (⟨S128x128, .bf16⟩ : BufTy).Contents (Elt Ideal)) (u : (⟨S128x40, .bf16⟩ : BufTy).Contents (Elt Ideal))
    (j q : Fin 128) :
    Host.scatter scatter_S128x128_S1_S128x40_01_n_1_0 (fun _ b => b) x
        (broadcastInDim S1 ![] bcast_S_S1 (constantI S_ 32 0#32)) u (ix2 j q)
      = if h : q.val < 40 then u (ix2 j ⟨q.val, h⟩) else x (ix2 j q) :=
  pad_general scatter_S128x128_S1_S128x40_01_n_1_0 _ start_index_zero (fun _ => ⟨rfl, rfl⟩) x u j q

/-- A [1, 40] row written over the first 40 columns of a [1, 128] row. -/
theorem pad_row (x : (⟨S1x128, .f32⟩ : BufTy).Contents (Elt Ideal)) (u : (⟨S1x40, .f32⟩ : BufTy).Contents (Elt Ideal))
    (q : Fin 128) :
    Host.scatter scatter_S1x128_S1_S1x40_01_n_1_0 (fun _ b => b) x
        (broadcastInDim S1 ![] bcast_S_S1 (constantI S_ 32 0#32)) u (ix2 (0 : Fin 1) q)
      = if h : q.val < 40 then u (ix2 (0 : Fin 1) ⟨q.val, h⟩) else x (ix2 (0 : Fin 1) q) :=
  pad_general scatter_S1x128_S1_S1x40_01_n_1_0 _ start_index_zero (fun _ => ⟨rfl, rfl⟩) x u 0 q

end Cert.LineGcn.Host

end
-- ==== Proof.HostArrays.lean ====
/-
  The arrays prepared from the arguments between the two projections and the three streaming passes, read at an index.

  Five arrays are built from the arguments b1, be (vectors of 128), W2 (a [256, 40] matrix) and b2 (a vector of 40):
    * the two hidden-layer biases as one-row matrices: row 0 of the [1, 128] array at lane j is the bias at j;
    * the two halves of W2, each padded from 40 to 128 columns: entry (j, q) of the padded upper half is W2 (j, q),
      of the padded lower half W2 (128 + j, q), for q below 40, and zero on the 88 lanes from 40 on (a [128, 40]
      array written over the first 40 columns of a zero [128, 128] array; the format change in between is the identity
      on the extended reals);
    * b2 padded the same way from 40 to 128 lanes: lane q of the [1, 128] row is b2 at q for q below 40, zero elsewhere.
  Nothing before these operations writes an argument, so each argument is read as it was at launch.  First each array
  is written as one term over the arguments (a reshape, or a slice and a padding write), then that term is read at an
  index: a reshape keeps the row-major position, a slice shifts the row by its offset, the padding write keeps the
  update's entry on the first 40 lanes.
-/
import proofs.«167551_g84756884620005_cont_sun_c4_91_1_alg».proof.Proof.Gen.KernelIdeal.Frame
import proofs.«167551_g84756884620005_cont_sun_c4_91_1_alg».proof.Proof.HostScatter
import proofs.«167551_g84756884620005_cont_sun_c4_91_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.LineGcn.Chain

open Cert.KernelIdeal Cert.KernelIdeal.Gen Idealize.ShloMosaic Idealize.ShloMosaic.TcCoe Idealize.ShloMosaic.ValueIdx Cert.LineGcn

variable (m : (ℓ : Loc nD τ sig) → Buf (Elt Ideal) ℓ) (ρ : Dev nD → PrngReg) (c : Dev nD)

/-! ## The arguments the host operations read are as launched -/

/-- Nothing that runs before these operations writes an argument: each holds what it held at launch. -/
theorem W2_arg5 : W2 m ρ c (Proc.devRef .tc main_arg5) = m ((c : Thread nD τ).loc main_arg5) :=
  (W2_of_ne m ρ c main_arg5 (by decide)).trans (W1_of_ne m ρ c main_arg5 (by decide))
theorem W2_arg7 : W2 m ρ c (Proc.devRef .tc main_arg7) = m ((c : Thread nD τ).loc main_arg7) :=
  (W2_of_ne m ρ c main_arg7 (by decide)).trans (W1_of_ne m ρ c main_arg7 (by decide))
theorem W2_arg8 : W2 m ρ c (Proc.devRef .tc main_arg8) = m ((c : Thread nD τ).loc main_arg8) :=
  (W2_of_ne m ρ c main_arg8 (by decide)).trans (W1_of_ne m ρ c main_arg8 (by decide))
theorem W2_arg9 : W2 m ρ c (Proc.devRef .tc main_arg9) = m ((c : Thread nD τ).loc main_arg9) :=
  (W2_of_ne m ρ c main_arg9 (by decide)).trans (W1_of_ne m ρ c main_arg9 (by decide))

/-! ## Each array the host operations build, as one term over the arguments -/

/-- The first bias as a row: the reshape of the vector. -/
theorem b1r_whole : (W3 m ρ c (Proc.devRef .tc main_v16) : S1x128.Idx → EReal)
    = shapeCast S1x128 (W2 m ρ c (Proc.devRef .tc main_arg5) : S128.Idx → EReal) shapeCasts_S128_S1x128 := by
  show StableHlo.after hostOps2 (W2 m ρ c) (Proc.devRef .tc main_v16) = _
  after_results
  rfl

/-- The second bias as a row: the reshape of the vector. -/
theorem ber_whole : (W3 m ρ c (Proc.devRef .tc main_v17) : S1x128.Idx → EReal)
    = shapeCast S1x128 (W2 m ρ c (Proc.devRef .tc main_arg7) : S128.Idx → EReal) shapeCasts_S128_S1x128 := by
  show StableHlo.after hostOps2 (W2 m ρ c) (Proc.devRef .tc main_v17) = _
  after_results
  rfl

/-- The upper half of the last weight, its 40 columns written over the first 40 of a zero [128, 128] array. -/
theorem w2a_whole : (W3 m ρ c (Proc.devRef .tc main_v6) : S128x128.Idx → EReal)
    = Host.scatter scatter_S128x128_S1_S128x40_01_n_1_0 (fun _ b => b)
        (broadcastInDim S128x128 ![] bcast_S_S128x128 (constant (F := Ideal) S_ .bf16 0x0000#16))
        (broadcastInDim S1 ![] bcast_S_S1 (constantI S_ 32 0#32))
        (truncf (F := Ideal) (φ := .f32) .bf16
          (extractStridedSlice S128x40 ![0, 0] (W2 m ρ c (Proc.devRef .tc main_arg8)) slices_S256x40_S128x40_0_0)
          bitsLt_bf16_f32) := by
  show StableHlo.after hostOps2 (W2 m ρ c) (Proc.devRef .tc main_v6) = _
  after_results

/-- The lower half of the last weight, padded the same way. -/
theorem w2b_whole : (W3 m ρ c (Proc.devRef .tc main_v11) : S128x128.Idx → EReal)
    = Host.scatter scatter_S128x128_S1_S128x40_01_n_1_0 (fun _ b => b)
        (broadcastInDim S128x128 ![] bcast_S_S128x128 (constant (F := Ideal) S_ .bf16 0x0000#16))
        (broadcastInDim S1 ![] bcast_S_S1 (constantI S_ 32 0#32))
        (truncf (F := Ideal) (φ := .f32) .bf16
          (extractStridedSlice S128x40 ![128, 0] (W2 m ρ c (Proc.devRef .tc main_arg8)) slices_S256x40_S128x40_128_0)
          bitsLt_bf16_f32) := by
  show StableHlo.after hostOps2 (W2 m ρ c) (Proc.devRef .tc main_v11) = _
  after_results

/-- The last bias as a row of 128 lanes: its 40 entries written over the first 40 of a zero row. -/
theorem b2p_whole : (W3 m ρ c (Proc.devRef .tc main_v15) : S1x128.Idx → EReal)
    = Host.scatter scatter_S1x128_S1_S1x40_01_n_1_0 (fun _ b => b)
        (broadcastInDim S1x128 ![] bcast_S_S1x128 (constant (F := Ideal) S_ .f32 0x00000000#32))
        (broadcastInDim S1 ![] bcast_S_S1 (constantI S_ 32 0#32))
        (broadcastInDim S1x40 ![1] bcast_S40_S1x40_1 (W2 m ρ c (Proc.devRef .tc main_arg9) : S40.Idx → EReal)) := by
  show StableHlo.after hostOps2 (W2 m ρ c) (Proc.devRef .tc main_v15) = _
  after_results

/-! ## The arrays read at an index -/

/-- The first bias row at lane j is the bias at j. -/
theorem b1r_eq (j : Fin 128) :
    W3 m ρ c (Proc.devRef .tc main_v16) (ix2 (0 : Fin 1) j) = m ((c : Thread nD τ).loc main_arg5) (ix1 j) := by
  rw [b1r_whole, shapeCast_a_1a_apply, W2_arg5]

/-- The second bias row at lane j is the bias at j. -/
theorem ber_eq (j : Fin 128) :
    W3 m ρ c (Proc.devRef .tc main_v17) (ix2 (0 : Fin 1) j) = m ((c : Thread nD τ).loc main_arg7) (ix1 j) := by
  rw [ber_whole, shapeCast_a_1a_apply, W2_arg7]

/-- The padded upper half at (j, q), q below 40, is the last weight at (j, q). -/
theorem w2a_eq (j q : Fin 128) (h : q.val < 40) :
    W3 m ρ c (Proc.devRef .tc main_v6) (ix2 j q) = m ((c : Thread nD τ).loc main_arg8) (ix2 (upper j) ⟨q.val, h⟩) := by
  rw [w2a_whole, Host.pad_cols, dif_pos h, truncf_apply,
    slice2_axis0_apply 0 _ slices_S256x40_S128x40_0_0 j ⟨q.val, h⟩ (upper j) (by show j.val = 0 + j.val; omega), W2_arg8]

/-- The padded lower half at (j, q), q below 40, is the last weight at (128 + j, q). -/
theorem w2b_eq (j q : Fin 128) (h : q.val < 40) :
    W3 m ρ c (Proc.devRef .tc main_v11) (ix2 j q) = m ((c : Thread nD τ).loc main_arg8) (ix2 (lower j) ⟨q.val, h⟩) := by
  rw [w2b_whole, Host.pad_cols, dif_pos h, truncf_apply,
    slice2_axis0_apply 128 _ slices_S256x40_S128x40_128_0 j ⟨q.val, h⟩ (lower j) rfl, W2_arg8]

/-- The padded last bias at lane q, q below 40, is the bias at q. -/
theorem b2p_eq (q : Fin 128) (h : q.val < 40) :
    W3 m ρ c (Proc.devRef .tc main_v15) (ix2 (0 : Fin 1) q) = m ((c : Thread nD τ).loc main_arg9) (ix1 ⟨q.val, h⟩) := by
  rw [b2p_whole, Host.pad_row, dif_pos h,
    broadcastInDim_apply _ bcast_S40_S1x40_1 _ (ix2 (0 : Fin 1) (⟨q.val, h⟩ : Fin 40)) (ix1 (⟨q.val, h⟩ : Fin 40))
      (fun a => match a with | ⟨0, _⟩ => rfl), W2_arg9]

end Cert.LineGcn.Chain

end
-- ==== Proof.Pad.lean ====
/-
  Padding a row of 40 extended reals to 128 with -∞ changes neither its largest entry nor the sum of the exponentials
  of its entries less a common shift: max with -∞ is the identity, -∞ less anything is -∞, and the exponential of -∞
  is 0.  The padded row is any g : Fin 128 → EReal that agrees with the row below 40 and is -∞ from 40 on.
-/
import Idealize.ShloMosaic.PureOps.Ideal

noncomputable section

namespace Cert.LineGcn

open Idealize.ShloMosaic
open scoped BigOperators

/-- The largest entry of the padded row is the largest entry of the row. -/
theorem fold_max_pad (f : Fin 40 → EReal) (g : Fin 128 → EReal)
    (hlt : ∀ (c : Fin 128) (h : c.val < 40), g c = f ⟨c.val, h⟩) (hge : ∀ c : Fin 128, ¬ c.val < 40 → g c = ⊥) :
    (Finset.univ : Finset (Fin 128)).fold max ⊥ g = (Finset.univ : Finset (Fin 40)).fold max ⊥ f := by
  refine le_antisymm ((Finset.fold_max_le _).2 ⟨bot_le, fun c _ => ?_⟩) ((Finset.fold_max_le _).2 ⟨bot_le, fun c _ => ?_⟩)
  · by_cases h : c.val < 40
    · rw [hlt c h]
      exact (Finset.le_fold_max _).2 (Or.inr ⟨_, Finset.mem_univ _, le_rfl⟩)
    · rw [hge c h]
      exact bot_le
  · exact (Finset.le_fold_max _).2 (Or.inr ⟨⟨c.val, by omega⟩, Finset.mem_univ _, (hlt ⟨c.val, by omega⟩ c.isLt).ge⟩)

/-- The sum of the exponentials of the padded row's shifted entries is that of the row's. -/
theorem sum_exp_pad (f : Fin 40 → EReal) (g : Fin 128 → EReal)
    (hlt : ∀ (c : Fin 128) (h : c.val < 40), g c = f ⟨c.val, h⟩) (hge : ∀ c : Fin 128, ¬ c.val < 40 → g c = ⊥)
    (m : EReal) :
    ∑ c : Fin 128, Ideal.exp (g c - m) = ∑ c : Fin 40, Ideal.exp (f c - m) := by
  refine (Fin.sum_univ_add (a := 40) (b := 88) (fun c : Fin (40 + 88) => Ideal.exp (g c - m))).trans ?_
  have hz : ∑ c : Fin 88, Ideal.exp (g (Fin.natAdd 40 c) - m) = 0 :=
    Finset.sum_eq_zero fun c _ => by
      rw [hge (Fin.natAdd 40 c) (by show ¬ 40 + c.val < 40; omega), EReal.bot_sub, Ideal.exp_bot]
  rw [hz, add_zero]
  exact Finset.sum_congr rfl fun c _ => congrArg (fun t => Ideal.exp (t - m)) (hlt (Fin.castAdd 88 c) c.isLt)

end Cert.LineGcn

end
-- ==== Proof.Bridge.lean ====
/-
  The five regions, composed, are the specification.

  The regions leave, in order: the two projections u = x · W1 and v = y · We; the node part
  za = max (adj · u + b1) 0 · W2a; the mixed features z = za + max (inc · v + be) 0 · W2b; and a row-wise log-softmax
  of the logits adj · z + b2 taken over the first 40 of 128 lanes.  W2a, W2b and b2 are the two halves of W2 and b2
  padded from 40 to 128 lanes, b1 and be are one-row copies of the two biases; the hypotheses say so entry by entry, on
  the first 40 lanes only.  On a lane below 40 each stage is the specification's function of the same name, term by
  term: the sums are over the same index sets with the same summands.  From lane 40 on the logits are masked to -∞,
  which changes neither the row maximum nor the sum of the exponentials (the padding lemmas).
-/
import proofs.«167551_g84756884620005_cont_sun_c4_91_1_alg».proof.Proof.Reg1
import proofs.«167551_g84756884620005_cont_sun_c4_91_1_alg».proof.Proof.Reg2
import proofs.«167551_g84756884620005_cont_sun_c4_91_1_alg».proof.Proof.Reg3
import proofs.«167551_g84756884620005_cont_sun_c4_91_1_alg».proof.Proof.PassC
import proofs.«167551_g84756884620005_cont_sun_c4_91_1_alg».proof.Proof.Spec
import proofs.«167551_g84756884620005_cont_sun_c4_91_1_alg».proof.Proof.Pad

noncomputable section

namespace Cert.LineGcn.Bridge

open Cert.KernelIdeal Cert.LineGcn.Glue
open Idealize.ShloMosaic Idealize.ShloMosaic.ValueIdx
open scoped BigOperators

section
variable (x0 : S8192x128.Idx → EReal) (x1 : S8192x8192.Idx → EReal) (x2 : S16384x16.Idx → EReal)
  (x3 : S8192x16384.Idx → EReal) (x4 : S128x128.Idx → EReal) (x5 : S128.Idx → EReal) (x6 : S16x128.Idx → EReal)
  (x7 : S128.Idx → EReal) (x8 : S256x40.Idx → EReal) (x9 : S40.Idx → EReal)
  (w2a w2b : S128x128.Idx → EReal) (b1r ber b2p : S1x128.Idx → EReal)

/-- What the fourth region leaves: the node part h · W2[0:128] plus the edge part g · W2[128:256], on 128 lanes. -/
abbrev zW : S8192x128.Idx → EReal := passB x3 (prodV x2 x6) ber w2b (passA x1 (prodU x0 x4) b1r w2a)

/-! ## The two rectified layers -/

/-- The node layer over the first region's product is the specification's h. -/
theorem hid_eq (hb1 : ∀ j : Fin 128, b1r (ix2 (0 : Fin 1) j) = x5 (ix1 j)) (r : Fin 8192) (j : Fin 128) :
    max ((∑ t : Fin 8192, x1 (ix2 r t) * prodU x0 x4 (ix2 t j)) + b1r (ix2 (0 : Fin 1) j)) 0 = hid x0 x1 x4 x5 r j := by
  rw [hb1 j]
  rfl

/-- The edge layer over the second region's product is the specification's g. -/
theorem edg_eq (hbe : ∀ j : Fin 128, ber (ix2 (0 : Fin 1) j) = x7 (ix1 j)) (r : Fin 8192) (j : Fin 128) :
    max ((∑ t : Fin 16384, x3 (ix2 r t) * prodV x2 x6 (ix2 t j)) + ber (ix2 (0 : Fin 1) j)) 0 = edg x2 x3 x6 x7 r j := by
  rw [hbe j]
  rfl

/-! ## The mixed features on the first 40 lanes -/

/-- The third region's array at a lane below 40: h · W2[0:128]. -/
theorem za_eq (hb1 : ∀ j : Fin 128, b1r (ix2 (0 : Fin 1) j) = x5 (ix1 j))
    (hwa : ∀ (j q : Fin 128) (h : q.val < 40), w2a (ix2 j q) = x8 (ix2 (upper j) ⟨q.val, h⟩))
    (t : Fin 8192) (q : Fin 128) (h : q.val < 40) :
    passA x1 (prodU x0 x4) b1r w2a (ix2 t q) = ∑ j : Fin 128, hid x0 x1 x4 x5 t j * x8 (ix2 (upper j) ⟨q.val, h⟩) := by
  unfold passA
  exact Finset.sum_congr rfl fun j _ => congrArg₂ (· * ·) (hid_eq x0 x1 x4 x5 b1r hb1 t j) (hwa j q h)

/-- The fourth region's array at a lane below 40 is the specification's s. -/
theorem z_eq (hb1 : ∀ j : Fin 128, b1r (ix2 (0 : Fin 1) j) = x5 (ix1 j))
    (hbe : ∀ j : Fin 128, ber (ix2 (0 : Fin 1) j) = x7 (ix1 j))
    (hwa : ∀ (j q : Fin 128) (h : q.val < 40), w2a (ix2 j q) = x8 (ix2 (upper j) ⟨q.val, h⟩))
    (hwb : ∀ (j q : Fin 128) (h : q.val < 40), w2b (ix2 j q) = x8 (ix2 (lower j) ⟨q.val, h⟩))
    (t : Fin 8192) (q : Fin 128) (h : q.val < 40) :
    zW x0 x1 x2 x3 x4 x6 w2a w2b b1r ber (ix2 t q) = mix x0 x1 x2 x3 x4 x5 x6 x7 x8 t ⟨q.val, h⟩ := by
  unfold zW passB mix
  exact congrArg₂ (· + ·) (za_eq x0 x1 x4 x5 x8 w2a b1r hb1 hwa t q h)
    (Finset.sum_congr rfl fun j _ => congrArg₂ (· * ·) (edg_eq x2 x3 x6 x7 ber hbe t j) (hwb j q h))

/-! ## The logits, masked past lane 40 -/

/-- The kernel's logit at a lane below 40 is the specification's. -/
theorem lg_eq (hb1 : ∀ j : Fin 128, b1r (ix2 (0 : Fin 1) j) = x5 (ix1 j))
    (hbe : ∀ j : Fin 128, ber (ix2 (0 : Fin 1) j) = x7 (ix1 j))
    (hwa : ∀ (j q : Fin 128) (h : q.val < 40), w2a (ix2 j q) = x8 (ix2 (upper j) ⟨q.val, h⟩))
    (hwb : ∀ (j q : Fin 128) (h : q.val < 40), w2b (ix2 j q) = x8 (ix2 (lower j) ⟨q.val, h⟩))
    (hb2 : ∀ (q : Fin 128) (h : q.val < 40), b2p (ix2 (0 : Fin 1) q) = x9 (ix1 ⟨q.val, h⟩))
    (r : Fin 8192) (q : Fin 128) (h : q.val < 40) :
    lgW x1 (zW x0 x1 x2 x3 x4 x6 w2a w2b b1r ber) b2p r q = logit x0 x1 x2 x3 x4 x5 x6 x7 x8 x9 r ⟨q.val, h⟩ := by
  unfold lgW logit
  exact congrArg₂ (· + ·)
    (Finset.sum_congr rfl fun t _ => congrArg (x1 (ix2 r t) * ·) (z_eq x0 x1 x2 x3 x4 x5 x6 x7 x8 w2a w2b b1r ber hb1 hbe hwa hwb t q h))
    (hb2 q h)

/-- The masked logit at a lane below 40 is the specification's logit. -/
theorem msk_lt (hb1 : ∀ j : Fin 128, b1r (ix2 (0 : Fin 1) j) = x5 (ix1 j))
    (hbe : ∀ j : Fin 128, ber (ix2 (0 : Fin 1) j) = x7 (ix1 j))
    (hwa : ∀ (j q : Fin 128) (h : q.val < 40), w2a (ix2 j q) = x8 (ix2 (upper j) ⟨q.val, h⟩))
    (hwb : ∀ (j q : Fin 128) (h : q.val < 40), w2b (ix2 j q) = x8 (ix2 (lower j) ⟨q.val, h⟩))
    (hb2 : ∀ (q : Fin 128) (h : q.val < 40), b2p (ix2 (0 : Fin 1) q) = x9 (ix1 ⟨q.val, h⟩))
    (r : Fin 8192) (q : Fin 128) (h : q.val < 40) :
    mskW x1 (zW x0 x1 x2 x3 x4 x6 w2a w2b b1r ber) b2p r q = logit x0 x1 x2 x3 x4 x5 x6 x7 x8 x9 r ⟨q.val, h⟩ := by
  unfold mskW
  rw [if_pos h]
  exact lg_eq x0 x1 x2 x3 x4 x5 x6 x7 x8 x9 w2a w2b b1r ber b2p hb1 hbe hwa hwb hb2 r q h

/-- The masked logit from lane 40 on is -∞. -/
theorem msk_ge (r : Fin 8192) (q : Fin 128) (h : ¬ q.val < 40) :
    mskW x1 (zW x0 x1 x2 x3 x4 x6 w2a w2b b1r ber) b2p r q = ⊥ := by
  unfold mskW
  rw [if_neg h]

/-- The largest masked logit over the 128 lanes is the largest of the 40 logits. -/
theorem rmax_eq (hb1 : ∀ j : Fin 128, b1r (ix2 (0 : Fin 1) j) = x5 (ix1 j))
    (hbe : ∀ j : Fin 128, ber (ix2 (0 : Fin 1) j) = x7 (ix1 j))
    (hwa : ∀ (j q : Fin 128) (h : q.val < 40), w2a (ix2 j q) = x8 (ix2 (upper j) ⟨q.val, h⟩))
    (hwb : ∀ (j q : Fin 128) (h : q.val < 40), w2b (ix2 j q) = x8 (ix2 (lower j) ⟨q.val, h⟩))
    (hb2 : ∀ (q : Fin 128) (h : q.val < 40), b2p (ix2 (0 : Fin 1) q) = x9 (ix1 ⟨q.val, h⟩))
    (r : Fin 8192) :
    rmaxW x1 (zW x0 x1 x2 x3 x4 x6 w2a w2b b1r ber) b2p r = rowMax x0 x1 x2 x3 x4 x5 x6 x7 x8 x9 r := by
  unfold rmaxW rowMax
  exact fold_max_pad (fun c => logit x0 x1 x2 x3 x4 x5 x6 x7 x8 x9 r c) _
    (fun q h => msk_lt x0 x1 x2 x3 x4 x5 x6 x7 x8 x9 w2a w2b b1r ber b2p hb1 hbe hwa hwb hb2 r q h)
    (fun q h => msk_ge x0 x1 x2 x3 x4 x6 w2a w2b b1r ber b2p r q h)

end

/-! ## The five regions composed -/

/-- The five regions, composed over the launch arrays and the padded weights and biases, leave the specification's
    log-softmax on the first 40 lanes. -/
theorem bridge (x0 : S8192x128.Idx → EReal) (x1 : S8192x8192.Idx → EReal) (x2 : S16384x16.Idx → EReal)
    (x3 : S8192x16384.Idx → EReal) (x4 : S128x128.Idx → EReal) (x5 : S128.Idx → EReal) (x6 : S16x128.Idx → EReal)
    (x7 : S128.Idx → EReal) (x8 : S256x40.Idx → EReal) (x9 : S40.Idx → EReal)
    (w2a w2b : S128x128.Idx → EReal) (b1r ber b2p : S1x128.Idx → EReal)
    (hb1 : ∀ j : Fin 128, b1r (ix2 (0 : Fin 1) j) = x5 (ix1 j)) (hbe : ∀ j : Fin 128, ber (ix2 (0 : Fin 1) j) = x7 (ix1 j))
    (hwa : ∀ (j q : Fin 128) (h : q.val < 40), w2a (ix2 j q) = x8 (ix2 (upper j) ⟨q.val, h⟩))
    (hwb : ∀ (j q : Fin 128) (h : q.val < 40), w2b (ix2 j q) = x8 (ix2 (lower j) ⟨q.val, h⟩))
    (hb2 : ∀ (q : Fin 128) (h : q.val < 40), b2p (ix2 (0 : Fin 1) q) = x9 (ix1 ⟨q.val, h⟩))
    (r : Fin 8192) (c : Fin 40) :
    passC x1 (passB x3 (prodV x2 x6) ber w2b (passA x1 (prodU x0 x4) b1r w2a)) b2p (ix2 r ⟨c.val, by omega⟩)
      = Cert.LineGcn.out x0 x1 x2 x3 x4 x5 x6 x7 x8 x9 r c := by
  have hc : c.val < 40 := c.isLt
  unfold passC
  refine (if_pos (show ((ix2 r (⟨c.val, by omega⟩ : Fin 128)) 1).val < 40 from hc)).trans ?_
  show (lgW x1 (zW x0 x1 x2 x3 x4 x6 w2a w2b b1r ber) b2p r ⟨c.val, by omega⟩
        - rmaxW x1 (zW x0 x1 x2 x3 x4 x6 w2a w2b b1r ber) b2p r)
      - Ideal.log (∑ c' : Fin 128, Ideal.exp (mskW x1 (zW x0 x1 x2 x3 x4 x6 w2a w2b b1r ber) b2p r c'
        - rmaxW x1 (zW x0 x1 x2 x3 x4 x6 w2a w2b b1r ber) b2p r)) = _
  rw [lg_eq x0 x1 x2 x3 x4 x5 x6 x7 x8 x9 w2a w2b b1r ber b2p hb1 hbe hwa hwb hb2 r ⟨c.val, by omega⟩ hc,
    rmax_eq x0 x1 x2 x3 x4 x5 x6 x7 x8 x9 w2a w2b b1r ber b2p hb1 hbe hwa hwb hb2 r,
    sum_exp_pad (fun c' => logit x0 x1 x2 x3 x4 x5 x6 x7 x8 x9 r c') _
      (fun q h => msk_lt x0 x1 x2 x3 x4 x5 x6 x7 x8 x9 w2a w2b b1r ber b2p hb1 hbe hwa hwb hb2 r q h)
      (fun q h => msk_ge x0 x1 x2 x3 x4 x6 w2a w2b b1r ber b2p r q h)]
  rfl

end Cert.LineGcn.Bridge

end
-- ==== Proof.KernelValue.lean ====
/-
  The idealized kernel's result, index by index: the specification's log-softmax.

  @main's result buffer ends holding the first 40 lanes of what region 4 left, which is the last pass over what
  regions 0 to 3 and the host operations left; composed over the launch arrays that is the specification.
-/
import proofs.«167551_g84756884620005_cont_sun_c4_91_1_alg».proof.Proof.Chain
import proofs.«167551_g84756884620005_cont_sun_c4_91_1_alg».proof.Proof.HostArrays
import proofs.«167551_g84756884620005_cont_sun_c4_91_1_alg».proof.Proof.Bridge

set_option maxRecDepth 16384

noncomputable section

namespace Cert.LineGcn.Chain

open Cert.KernelIdeal Cert.KernelIdeal.Gen Cert.LineGcn.Glue
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- The kernel's result array is the specification's, of the launch arrays. -/
theorem kernel_result : (W7 m ρ c (Proc.devRef .tc main_v21) : S8192x40.Idx → EReal)
    = Cert.LineGcn.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨r, k, rfl⟩ : ∃ (r : Fin 8192) (k : Fin 40), i = ix2 r k := ⟨i 0, i 1, eq_ix2 i⟩
  rw [v21_apply, o_eq]
  exact Cert.LineGcn.Bridge.bridge _ _ _ _ _ _ _ _ _ _ (V3 m ρ c main_v6) (V3 m ρ c main_v11) (V3 m ρ c main_v16) (V3 m ρ c main_v17) (V3 m ρ c main_v15)
    (b1r_eq m ρ c) (ber_eq m ρ c) (w2a_eq m ρ c) (w2b_eq m ρ c) (b2p_eq m ρ c) r k

end Cert.LineGcn.Chain

end
-- ==== Proof.lean ====
/-
  The proof of `Cert.Claim`: a two-layer line-graph convolution with a log-softmax head, as five kernel regions,
  against its plain reference.

  At the ideal values both programs compute, at row r and class c,
      (l r c - M r) - log Σ_{c'} exp (l r c' - M r),     M r the largest of the row's 40 logits,
      l = adj · (h · W2[0:128] + g · W2[128:256]) + b2,  h = max (adj · (x · W1) + b1) 0,  g = max (inc · (y · We) + be) 0
  (Proof/Spec.lean).  The reference computes it as written, over the join [h | g]: the product with W2 splits at the
  join.  The kernel computes u = x · W1 and v = y · We, then in three passes over row blocks za = h · W2a, z = za + g · W2b
  and the log-softmax, with the class axis padded from 40 to 128 lanes by zero columns of the weights, zero bias and
  a mask of ⊥ on the padding: a zero column contributes nothing the result reads, max with ⊥ is the identity, and
  exp ⊥ = 0, so the padded row maximum and sum of exponentials are the unpadded ones.  Every step is an identity of
  extended reals (sums re-indexed and split; no distributivity, no cancellation), so finiteness of the inputs is
  never used.  The format changes of the kernel are identities at the ideal values and the ideal pass rewrote
  nothing, so `preserves` is trivial.  The three frames are the generated ones.
-/
import proofs.«167551_g84756884620005_cont_sun_c4_91_1_alg».proof.Defs
import proofs.«167551_g84756884620005_cont_sun_c4_91_1_alg».proof.Proof.Gen.Kernel
import proofs.«167551_g84756884620005_cont_sun_c4_91_1_alg».proof.Proof.Gen.Kernel.Skeleton
import proofs.«167551_g84756884620005_cont_sun_c4_91_1_alg».proof.Proof.Gen.Kernel.Launch
import proofs.«167551_g84756884620005_cont_sun_c4_91_1_alg».proof.Proof.Gen.Kernel.Points
import proofs.«167551_g84756884620005_cont_sun_c4_91_1_alg».proof.Proof.Gen.Kernel.Frame
import proofs.«167551_g84756884620005_cont_sun_c4_91_1_alg».proof.Proof.Gen.KernelIdeal
import proofs.«167551_g84756884620005_cont_sun_c4_91_1_alg».proof.Proof.Gen.KernelIdeal.Skeleton
import proofs.«167551_g84756884620005_cont_sun_c4_91_1_alg».proof.Proof.Gen.KernelIdeal.Launch
import proofs.«167551_g84756884620005_cont_sun_c4_91_1_alg».proof.Proof.Gen.KernelIdeal.Points
import proofs.«167551_g84756884620005_cont_sun_c4_91_1_alg».proof.Proof.Gen.KernelIdeal.Frame
import proofs.«167551_g84756884620005_cont_sun_c4_91_1_alg».proof.Proof.Gen.ReferenceIdeal
import proofs.«167551_g84756884620005_cont_sun_c4_91_1_alg».proof.Proof.Gen.Pre_finite_inputs
import proofs.«167551_g84756884620005_cont_sun_c4_91_1_alg».proof.Proof.RefRunP
import proofs.«167551_g84756884620005_cont_sun_c4_91_1_alg».proof.Proof.RefReadP
import proofs.«167551_g84756884620005_cont_sun_c4_91_1_alg».proof.Proof.RefValue
import proofs.«167551_g84756884620005_cont_sun_c4_91_1_alg».proof.Proof.KernelRun
import proofs.«167551_g84756884620005_cont_sun_c4_91_1_alg».proof.Proof.KernelValue
import Idealize.ShloMosaic.Adequacy
import Idealize.ShloMosaic.Init

noncomputable section

namespace Cert.Proof

open Idealize.ShloMosaic Idealize.SL.Sem

/-- The word-level kernel's frame: generated. -/
theorem frame_k : Cert.frame_Kernel := fun m ρ _ => Cert.Kernel.Gen.frame m ρ
/-- The idealized kernel's frame: generated. -/
theorem frame_ki : Cert.frame_KernelIdeal := fun m ρ _ => Cert.KernelIdeal.Gen.frame m ρ
/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- At the ideal values the kernel's result array and the reference's, from memories agreeing on the arguments,
    are the specification's array of those arguments. -/
theorem algebraic : Cert.algebraic_KernelIdeal_ReferenceIdeal := by
  intro m ρ m' ρ' _ hagree
  refine ⟨fun c => Cert.LineGcn.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.LineGcn.Chain.kernel_result m ρ c), (h c).2⟩) (Cert.LineGcn.Run.run_result m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v18_eq, Cert.LineGcn.Ref.ref_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
